-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S300000x256 : Shape := ⟨2, ![300000, 256]⟩
abbrev S800000 : Shape := ⟨1, ![800000]⟩
abbrev S131072 : Shape := ⟨1, ![131072]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S300000x256 : S_.BroadcastsInDim S300000x256 (![] : Fin 0 → Fin S300000x256.rank)
  reducesTo_S300000x256_S_d0_1 : S300000x256.ReducesTo [0, 1] S_
  h_S_ : 0 < S_.numel
  bcast_S_S800000 : S_.BroadcastsInDim S800000 (![] : Fin 0 → Fin S800000.rank)
  reducesTo_S800000_S_d0 : S800000.ReducesTo [0] S_
  bcast_S_S131072 : S_.BroadcastsInDim S131072 (![] : Fin 0 → Fin S131072.rank)
  reducesTo_S131072_S_d0 : S131072.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg8 : FVec F S128 .f32) (main_arg9 : FVec F S128x128 .f32) (main_arg10 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg8
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg9
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg10
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S300000x256 .f32) (main_arg1 : IVec S800000 32) (main_arg2 : IVec S800000 32) (main_arg3 : FVec F S800000 .f32) (main_arg4 : IVec S131072 32) (main_arg5 : IVec S131072 32) (main_arg6 : FVec F S131072 .f32) (main_arg7 : FVec F S256x128 .f32) (main_arg8 : FVec F S128 .f32) (main_arg9 : FVec F S128x128 .f32) (main_arg10 : FVec F S128 .f32) : IVec S_ 1 :=
  let main_v0 : FVec F S300000x256 .f32 := Host.absf main_arg0
  let main_cst : FVec F S_ .f32 := constant S_ .f32 0x7F800000#32
  let main_v1 : FVec F S300000x256 .f32 := broadcastInDim S300000x256 ![] bcast_S_S300000x256 main_cst
  let main_v2 : IVec S300000x256 1 := cmpf .olt main_v0 main_v1
  let main_c : IVec S_ 1 := constantI S_ 1 1#1
  let main_v3 : IVec S_ 1 := (fun x v => Host.reduce IntOp.andi x v reducesTo_S300000x256_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S131072 .f32 := Host.absf main_arg6
  let main_cst_2 : FVec F S_ .f32 := constant S_ .f32 0x7F800000#32
  let main_v10 : FVec F S131072 .f32 := broadcastInDim S131072 ![] bcast_S_S131072 main_cst_2
  let main_v11 : IVec S131072 1 := cmpf .olt main_v9 main_v10
  let main_c_3 : IVec S_ 1 := constantI S_ 1 1#1
  let main_v12 : IVec S_ 1 := (fun x v => Host.reduce IntOp.andi x v reducesTo_S131072_S_d0 h_S_) main_v11 main_c_3
  let main_v13 : IVec S_ 1 := andi main_v8 main_v12
  let main_v14 : FVec F S256x128 .f32 := Host.absf main_arg7
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg8 main_arg9 main_arg10 main_v13 main_v16
-- ==== Kernel.lean ====
abbrev S300000x256 : Shape := ⟨2, ![300000, 256]⟩
abbrev S800000 : Shape := ⟨1, ![800000]⟩
abbrev S131072 : Shape := ⟨1, ![131072]⟩
abbrev S256x128 : Shape := ⟨2, ![256, 128]⟩
abbrev S128 : Shape := ⟨1, ![128]⟩
abbrev S128x128 : Shape := ⟨2, ![128, 128]⟩
abbrev S_ : Shape := ⟨0, ![]⟩
abbrev S300000 : Shape := ⟨1, ![300000]⟩
abbrev S800000x1 : Shape := ⟨2, ![800000, 1]⟩
abbrev S300000x1 : Shape := ⟨2, ![300000, 1]⟩
abbrev S300000x128 : Shape := ⟨2, ![300000, 128]⟩
abbrev S12000x256 : Shape := ⟨2, ![12000, 256]⟩
abbrev S12000x1 : Shape := ⟨2, ![12000, 1]⟩
abbrev S12000x128 : Shape := ⟨2, ![12000, 128]⟩
abbrev S800000x128 : Shape := ⟨2, ![800000, 128]⟩
abbrev S50000x128 : Shape := ⟨2, ![50000, 128]⟩
abbrev S50000 : Shape := ⟨1, ![50000]⟩
abbrev S50000x1 : Shape := ⟨2, ![50000, 1]⟩
abbrev S131072x1 : Shape := ⟨2, ![131072, 1]⟩
abbrev S1x128 : Shape := ⟨2, ![1, 128]⟩
abbrev S10000x128 : Shape := ⟨2, ![10000, 128]⟩
abbrev S10000x1 : Shape := ⟨2, ![10000, 1]⟩
abbrev S131072x128 : Shape := ⟨2, ![131072, 128]⟩
abbrev S8192x128 : Shape := ⟨2, ![8192, 128]⟩
abbrev S8192 : Shape := ⟨1, ![8192]⟩
abbrev S8192x1 : Shape := ⟨2, ![8192, 1]⟩
abbrev S2048x128 : Shape := ⟨2, ![2048, 128]⟩
abbrev S2048x1 : Shape := ⟨2, ![2048, 1]⟩

abbrev nBuf : Space → Nat
  | .hbm => 104
  | .vmem => 24
  | .smem => 0
  | _ => 0

abbrev bufTy : (tb : Table) → Fin (tcTables nBuf tb) → BufTy
  | .hbm, ⟨0, _⟩ => ⟨S300000x256, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S131072, .i32⟩
  | .hbm, ⟨5, _⟩ => ⟨S131072, .i32⟩
  | .hbm, ⟨6, _⟩ => ⟨S131072, .f32⟩
  | .hbm, ⟨7, _⟩ => ⟨S256x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S300000, .f32⟩
  | .hbm, ⟨15, _⟩ => ⟨S800000x1, .i32⟩
  | .hbm, ⟨16, _⟩ => ⟨S300000, .f32⟩
  | .hbm, ⟨17, _⟩ => ⟨S_, .f32⟩
  | .hbm, ⟨18, _⟩ => ⟨S_, .f32⟩
  | .hbm, ⟨19, _⟩ => ⟨S300000, .f32⟩
  | .hbm, ⟨20, _⟩ => ⟨S300000, .f32⟩
  | .hbm, ⟨21, _⟩ => ⟨S_, .f32⟩
  | .hbm, ⟨22, _⟩ => ⟨S300000, .f32⟩
  | .hbm, ⟨23, _⟩ => ⟨S300000, .f32⟩
  | .hbm, ⟨24, _⟩ => ⟨S300000x1, .f32⟩
  | .hbm, ⟨25, _⟩ => ⟨S256x128, .bf16⟩
  | .hbm, ⟨26, _⟩ => ⟨S300000x128, .bf16⟩
  | .hbm, ⟨27, _⟩ => ⟨S800000x1, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .bf16⟩
  | .hbm, ⟨37, _⟩ => ⟨S800000x128, .f32⟩
  | .hbm, ⟨38, _⟩ => ⟨S800000x128, .f32⟩
  | .hbm, ⟨39, _⟩ => ⟨S800000x128, .f32⟩
  | .hbm, ⟨40, _⟩ => ⟨S_, .f32⟩
  | .hbm, ⟨41, _⟩ => ⟨S50000x128, .f32⟩
  | .hbm, ⟨42, _⟩ => ⟨S800000x1, .i32⟩
  | .hbm, ⟨43, _⟩ => ⟨S50000x128, .f32⟩
  | .hbm, ⟨44, _⟩ => ⟨S_, .f32⟩
  | .hbm, ⟨45, _⟩ => ⟨S50000, .f32⟩
  | .hbm, ⟨46, _⟩ => ⟨S800000x1, .i32⟩
  | .hbm, ⟨47, _⟩ => ⟨S50000, .f32⟩
  | .hbm, ⟨48, _⟩ => ⟨S_, .f32⟩
  | .hbm, ⟨49, _⟩ => ⟨S_, .f32⟩
  | .hbm, ⟨50, _⟩ => ⟨S50000, .f32⟩
  | .hbm, ⟨51, _⟩ => ⟨S50000, .f32⟩
  | .hbm, ⟨52, _⟩ => ⟨S_, .f32⟩
  | .hbm, ⟨53, _⟩ => ⟨S50000, .f32⟩
  | .hbm, ⟨54, _⟩ => ⟨S50000, .f32⟩
  | .hbm, ⟨55, _⟩ => ⟨S50000x1, .f32⟩
  | .hbm, ⟨56, _⟩ => ⟨S_, .f32⟩
  | .hbm, ⟨57, _⟩ => ⟨S131072, .f32⟩
  | .hbm, ⟨58, _⟩ => ⟨S_, .f32⟩
  | .hbm, ⟨59, _⟩ => ⟨S50000, .f32⟩
  | .hbm, ⟨60, _⟩ => ⟨S131072x1, .i32⟩
  | .hbm, ⟨61, _⟩ => ⟨S50000, .f32⟩
  | .hbm, ⟨62, _⟩ => ⟨S_, .f32⟩
  | .hbm, ⟨63, _⟩ => ⟨S_, .f32⟩
  | .hbm, ⟨64, _⟩ => ⟨S50000, .f32⟩
  | .hbm, ⟨65, _⟩ => ⟨S50000, .f32⟩
  | .hbm, ⟨66, _⟩ => ⟨S_, .f32⟩
  | .hbm, ⟨67, _⟩ => ⟨S50000, .f32⟩
  | .hbm, ⟨68, _⟩ => ⟨S50000, .f32⟩
  | .hbm, ⟨69, _⟩ => ⟨S50000x1, .f32⟩
  | .hbm, ⟨70, _⟩ => ⟨S1x128, .f32⟩
  | .hbm, ⟨71, _⟩ => ⟨S50000x128, .bf16⟩
  | .hbm, ⟨72, _⟩ => ⟨S131072x1, .f32⟩
  | .hbm, ⟨73, _⟩ => ⟨S_, .i32⟩
  | .hbm, ⟨74, _⟩ => ⟨S131072, .i32⟩
  | .hbm, ⟨75, _⟩ => ⟨S131072, .i1⟩
  | .hbm, ⟨76, _⟩ => ⟨S_, .i32⟩
  | .hbm, ⟨77, _⟩ => ⟨S131072, .i32⟩
  | .hbm, ⟨78, _⟩ => ⟨S131072, .i32⟩
  | .hbm, ⟨79, _⟩ => ⟨S131072, .i32⟩
  | .hbm, ⟨80, _⟩ => ⟨S131072x1, .i32⟩
  | .hbm, ⟨81, _⟩ => ⟨S131072x128, .bf16⟩
  | .hbm, ⟨82, _⟩ => ⟨S131072x128, .f32⟩
  | .hbm, ⟨83, _⟩ => ⟨S131072x128, .f32⟩
  | .hbm, ⟨84, _⟩ => ⟨S131072x128, .f32⟩
  | .hbm, ⟨85, _⟩ => ⟨S_, .f32⟩
  | .hbm, ⟨86, _⟩ => ⟨S8192x128, .f32⟩
  | .hbm, ⟨87, _⟩ => ⟨S131072x1, .i32⟩
  | .hbm, ⟨88, _⟩ => ⟨S8192x128, .f32⟩
  | .hbm, ⟨89, _⟩ => ⟨S_, .f32⟩
  | .hbm, ⟨90, _⟩ => ⟨S8192, .f32⟩
  | .hbm, ⟨91, _⟩ => ⟨S131072x1, .i32⟩
  | .hbm, ⟨92, _⟩ => ⟨S8192, .f32⟩
  | .hbm, ⟨93, _⟩ => ⟨S_, .f32⟩
  | .hbm, ⟨94, _⟩ => ⟨S_, .f32⟩
  | .hbm, ⟨95, _⟩ => ⟨S8192, .f32⟩
  | .hbm, ⟨96, _⟩ => ⟨S8192, .f32⟩
  | .hbm, ⟨97, _⟩ => ⟨S_, .f32⟩
  | .hbm, ⟨98, _⟩ => ⟨S8192, .f32⟩
  | .hbm, ⟨99, _⟩ => ⟨S8192, .f32⟩
  | .hbm, ⟨100, _⟩ => ⟨S8192x1, .f32⟩
  | .hbm, ⟨101, _⟩ => ⟨S128x128, .bf16⟩
  | .hbm, ⟨102, _⟩ => ⟨S1x128, .f32⟩
  | .hbm, ⟨103, _⟩ => ⟨S8192x128, .f32⟩
  | .local _ .vmem, ⟨0, _⟩ => ⟨S12000x256, .f32⟩
  | .local _ .vmem, ⟨1, _⟩ => ⟨S12000x256, .f32⟩
  | .local _ .vmem, ⟨2, _⟩ => ⟨S12000x1, .f32⟩
  | .local _ .vmem, ⟨3, _⟩ => ⟨S12000x1, .f32⟩
  | .local _ .vmem, ⟨4, _⟩ => ⟨S256x128, .bf16⟩
  | .local _ .vmem, ⟨5, _⟩ => ⟨S12000x128, .bf16⟩
  | .local _ .vmem, ⟨6, _⟩ => ⟨S12000x128, .bf16⟩
  | .local _ .vmem, ⟨7, _⟩ => ⟨S10000x128, .f32⟩
  | .local _ .vmem, ⟨8, _⟩ => ⟨S10000x128, .f32⟩
  | .local _ .vmem, ⟨9, _⟩ => ⟨S10000x1, .f32⟩
  | .local _ .vmem, ⟨10, _⟩ => ⟨S10000x1, .f32⟩
  | .local _ .vmem, ⟨11, _⟩ => ⟨S1x128, .f32⟩
  | .local _ .vmem, ⟨12, _⟩ => ⟨S10000x1, .f32⟩
  | .local _ .vmem, ⟨13, _⟩ => ⟨S10000x1, .f32⟩
  | .local _ .vmem, ⟨14, _⟩ => ⟨S10000x128, .bf16⟩
  | .local _ .vmem, ⟨15, _⟩ => ⟨S10000x128, .bf16⟩
  | .local _ .vmem, ⟨16, _⟩ => ⟨S2048x128, .f32⟩
  | .local _ .vmem, ⟨17, _⟩ => ⟨S2048x128, .f32⟩
  | .local _ .vmem, ⟨18, _⟩ => ⟨S2048x1, .f32⟩
  | .local _ .vmem, ⟨19, _⟩ => ⟨S2048x1, .f32⟩
  | .local _ .vmem, ⟨20, _⟩ => ⟨S128x128, .bf16⟩
  | .local _ .vmem, ⟨21, _⟩ => ⟨S1x128, .f32⟩
  | .local _ .vmem, ⟨22, _⟩ => ⟨S2048x128, .f32⟩
  | .local _ .vmem, ⟨23, _⟩ => ⟨S2048x128, .f32⟩
  | _, _ => ⟨S300000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v4 : Ref sig .tc := ⟨.hbm, 20, rfl⟩
abbrev main_cst_2 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c : Ref sig .tc := ⟨.hbm, 28, rfl⟩
abbrev main_v11 : Ref sig .tc := ⟨.hbm, 29, rfl⟩
abbrev main_v12 : Ref sig .tc := ⟨.hbm, 30, rfl⟩
abbrev main_c_3 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_6 : Ref sig .tc := ⟨.hbm, 48, rfl⟩
abbrev main_call1_v0 : Ref sig .tc := ⟨.hbm, 49, rfl⟩
abbrev main_call1_v1 : Ref sig .tc := ⟨.hbm, 50, rfl⟩
abbrev main_v27 : Ref sig .tc := ⟨.hbm, 51, rfl⟩
abbrev main_cst_7 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_8 : Ref sig .tc := ⟨.hbm, 56, rfl⟩
abbrev main_v31 : Ref sig .tc := ⟨.hbm, 57, rfl⟩
abbrev main_cst_9 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_10 : Ref sig .tc := ⟨.hbm, 62, rfl⟩
abbrev main_call2_v0 : Ref sig .tc := ⟨.hbm, 63, rfl⟩
abbrev main_call2_v1 : Ref sig .tc := ⟨.hbm, 64, rfl⟩
abbrev main_v35 : Ref sig .tc := ⟨.hbm, 65, rfl⟩
abbrev main_cst_11 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_c_12 : Ref sig .tc := ⟨.hbm, 73, rfl⟩
abbrev main_v42 : Ref sig .tc := ⟨.hbm, 74, rfl⟩
abbrev main_v43 : Ref sig .tc := ⟨.hbm, 75, rfl⟩
abbrev main_c_13 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_14 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_cst_15 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_16 : Ref sig .tc := ⟨.hbm, 93, rfl⟩
abbrev main_call3_v0 : Ref sig .tc := ⟨.hbm, 94, rfl⟩
abbrev main_call3_v1 : Ref sig .tc := ⟨.hbm, 95, rfl⟩
abbrev main_v58 : Ref sig .tc := ⟨.hbm, 96, rfl⟩
abbrev main_cst_17 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S12000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S12000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S10000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2048x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bcast_S_S800000 : S_.BroadcastsInDim S800000 (![] : Fin 0 → Fin S800000.rank)
  bcast_S_S300000 : S_.BroadcastsInDim S300000 (![] : Fin 0 → Fin S300000.rank)
  bcast_S800000_S800000x1_0 : S800000.BroadcastsInDim S800000x1 (![0] : Fin 1 → Fin S800000x1.rank)
  shapeCasts_S300000_S300000x1 : S300000.ShapeCasts S300000x1
  bitsLt_bf16_f32 : FTy.bits .bf16 < FTy.bits .f32
  inb_S12000x256_S12000x256_0_0 : ∀ a, (![0, 0] : Fin 2 → Nat) a + S12000x256.size a ≤ S12000x256.size a
  h_S12000x256 : 0 < S12000x256.numel
  inb_S12000x1_S12000x1_0_0 : ∀ a, (![0, 0] : Fin 2 → Nat) a + S12000x1.size a ≤ S12000x1.size a
  h_S12000x1 : 0 < S12000x1.numel
  shapeCasts_S12000x1_S12000x1 : S12000x1.ShapeCasts S12000x1
  broadcasts_S12000x1_S12000x256 : S12000x1.Broadcasts S12000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S12000x128_S12000x128_0_0 : ∀ a, (![0, 0] : Fin 2 → Nat) a + S12000x128.size a ≤ S12000x128.size a
  h_S12000x128 : 0 < S12000x128.numel
  packedbf16_S12000x128_S12000x128_0_0 : (Rect.unit (s := S12000x128) ![0, 0] S12000x128.size inb_S12000x128_S12000x128_0_0).PackedRows (EltTy.packing .bf16)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S_S50000 : S_.BroadcastsInDim S50000 (![] : Fin 0 → Fin S50000.rank)
  shapeCasts_S50000_S50000x1 : S50000.ShapeCasts S50000x1
  bcast_S_S131072 : S_.BroadcastsInDim S131072 (![] : Fin 0 → Fin S131072.rank)
  bcast_S131072_S131072x1_0 : S131072.BroadcastsInDim S131072x1 (![0] : Fin 1 → Fin S131072x1.rank)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  packedbf16_S10000x128_S10000x128_0_0 : (Rect.unit (s := S10000x128) ![0, 0] S10000x128.size inb_S10000x128_S10000x128_0_0).PackedRows (EltTy.packing .bf16)
  bcast_S131072x1_S131072x128_0_1 : S131072x1.BroadcastsInDim S131072x128 (![0, 1] : Fin 2 → Fin S131072x128.rank)
  bcast_S_S8192x128 : S_.BroadcastsInDim S8192x128 (![] : Fin 0 → Fin S8192x128.rank)
  bcast_S_S8192 : S_.BroadcastsInDim S8192 (![] : Fin 0 → Fin S8192.rank)
  shapeCasts_S8192_S8192x1 : S8192.ShapeCasts S8192x1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x128 : S2048x1.Broadcasts S2048x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S2048x128 : S1x128.Broadcasts S2048x128
  scatter_S300000_S800000x1_S800000_n_0_0_1_wf : ScatterDims.WF S300000 S800000x1 S800000 [] [0] [0] 1
  dot_S12000x256_S256x128_S12000x128_1_0_0_1_n_n_wf : DotDims.WF S12000x256 S256x128 S12000x128 [1] [0] [0] [1] [] []
  gather_S300000x128_S800000x1_S800000x128_1_0_n_n_0_1_1128_wf : GatherDims.WF S300000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  scatter_S50000_S131072x1_S131072_n_0_0_1_wf : ScatterDims.WF S50000 S131072x1 S131072 [] [0] [0] 1
  gather_S50000x128_S131072x1_S131072x128_1_0_n_n_0_1_1128_wf : GatherDims.WF S50000x128 S131072x1 S131072x128 [1] [0] [] [0] [] 1 ![1, 128]
  scatter_S8192x128_S131072x1_S131072x128_1_0_0_1_wf : ScatterDims.WF S8192x128 S131072x1 S131072x128 [1] [0] [0] 1
  scatter_S8192_S131072x1_S131072_n_0_0_1_wf : ScatterDims.WF S8192 S131072x1 S131072 [] [0] [0] 1
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12000x256.size a ≤ S300000x256.size a
  hwx0_0 : ∀ i : grid0.Coords, EltTy.bits .f32 = 32 ∨ (Rect.block (s := S300000x256) S12000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S12000x1.size a ≤ S300000x1.size a
  hwx0_1 : ∀ i : grid0.Coords, EltTy.bits .f32 = 32 ∨ (Rect.block (s := S300000x1) S12000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .bf16 = 32 ∨ (Rect.block (s := S256x128) S256x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S12000x128.size a ≤ S300000x128.size a
  hwx0_3 : ∀ i : grid0.Coords, EltTy.bits .bf16 = 32 ∨ (Rect.block (s := S300000x128) S12000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S50000x1.size a
  hwx1_1 : ∀ i : grid1.Coords, EltTy.bits .f32 = 32 ∨ (Rect.block (s := S50000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x1.size a ≤ S50000x1.size a
  hwx1_3 : ∀ i : grid1.Coords, EltTy.bits .f32 = 32 ∨ (Rect.block (s := S50000x1) S10000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x128.size a ≤ S50000x128.size a
  hwx1_4 : ∀ i : grid1.Coords, EltTy.bits .bf16 = 32 ∨ (Rect.block (s := S50000x128) S10000x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S8192x128.size a
  hwx2_0 : ∀ i : grid2.Coords, EltTy.bits .f32 = 32 ∨ (Rect.block (s := S8192x128) S2048x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x1.size a ≤ S8192x1.size a
  hwx2_1 : ∀ i : grid2.Coords, EltTy.bits .f32 = 32 ∨ (Rect.block (s := S8192x1) S2048x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2048x128.size a ≤ S8192x128.size a
  hwx2_4 : ∀ i : grid2.Coords, EltTy.bits .f32 = 32 ∨ (Rect.block (s := S8192x128) S2048x128.size (cc2_transform_4 i) (hinb2_4 i)).WholeWords (EltTy.packing .f32)

variable [Facts₀]

def scatter_S300000_S800000x1_S800000_n_0_0_1 : ScatterDims S300000 S800000x1 S800000 where
  updateWindowDims := []
  insertedWindowDims := [0]
  scatterDimsToOperandDims := [0]
  indexVectorDim := 1
  wf := scatter_S300000_S800000x1_S800000_n_0_0_1_wf
def dot_S12000x256_S256x128_S12000x128_1_0_0_1_n_n : DotDims S12000x256 S256x128 S12000x128 where
  lhsContracting := [1]
  rhsContracting := [0]
  lhsNonContracting := [0]
  rhsNonContracting := [1]
  lhsBatch := []
  rhsBatch := []
  wf := dot_S12000x256_S256x128_S12000x128_1_0_0_1_n_n_wf
def gather_S300000x128_S800000x1_S800000x128_1_0_n_n_0_1_1128 : GatherDims S300000x128 S800000x1 S800000x128 where
  offsetDims := [1]
  collapsedSliceDims := [0]
  operandBatchingDims := []
  startIndicesBatchingDims := []
  startIndexMap := [0]
  indexVectorDim := 1
  sliceSizes := ![1, 128]
  wf := gather_S300000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S50000_S131072x1_S131072_n_0_0_1 : ScatterDims S50000 S131072x1 S131072 where
  updateWindowDims := []
  insertedWindowDims := [0]
  scatterDimsToOperandDims := [0]
  indexVectorDim := 1
  wf := scatter_S50000_S131072x1_S131072_n_0_0_1_wf
def gather_S50000x128_S131072x1_S131072x128_1_0_n_n_0_1_1128 : GatherDims S50000x128 S131072x1 S131072x128 where
  offsetDims := [1]
  collapsedSliceDims := [0]
  operandBatchingDims := []
  startIndicesBatchingDims := []
  startIndexMap := [0]
  indexVectorDim := 1
  sliceSizes := ![1, 128]
  wf := gather_S50000x128_S131072x1_S131072x128_1_0_n_n_0_1_1128_wf
def scatter_S8192x128_S131072x1_S131072x128_1_0_0_1 : ScatterDims S8192x128 S131072x1 S131072x128 where
  updateWindowDims := [1]
  insertedWindowDims := [0]
  scatterDimsToOperandDims := [0]
  indexVectorDim := 1
  wf := scatter_S8192x128_S131072x1_S131072x128_1_0_0_1_wf
def scatter_S8192_S131072x1_S131072_n_0_0_1 : ScatterDims S8192 S131072x1 S131072 where
  updateWindowDims := []
  insertedWindowDims := [0]
  scatterDimsToOperandDims := [0]
  indexVectorDim := 1
  wf := scatter_S8192_S131072x1_S131072_n_0_0_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_arg0) S12000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S12000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S12000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S10000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v40) S10000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v54) S2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S2048x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v62) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v63) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v64) S2048x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S300000x256 : Shape := ⟨2, ![300000, 256]⟩
abbrev S800000 : Shape := ⟨1, ![800000]⟩
abbrev S131072 : Shape := ⟨1, ![131072]⟩
abbrev S256x128 : Shape := ⟨2, ![256, 128]⟩
abbrev S128 : Shape := ⟨1, ![128]⟩
abbrev S128x128 : Shape := ⟨2, ![128, 128]⟩
abbrev S_ : Shape := ⟨0, ![]⟩
abbrev S300000 : Shape := ⟨1, ![300000]⟩
abbrev S800000x1 : Shape := ⟨2, ![800000, 1]⟩
abbrev S300000x1 : Shape := ⟨2, ![300000, 1]⟩
abbrev S300000x128 : Shape := ⟨2, ![300000, 128]⟩
abbrev S800000x128 : Shape := ⟨2, ![800000, 128]⟩
abbrev S50000x128 : Shape := ⟨2, ![50000, 128]⟩
abbrev S50000 : Shape := ⟨1, ![50000]⟩
abbrev S50000x1 : Shape := ⟨2, ![50000, 1]⟩
abbrev S1x128 : Shape := ⟨2, ![1, 128]⟩
abbrev S131072x1 : Shape := ⟨2, ![131072, 1]⟩
abbrev S131072x128 : Shape := ⟨2, ![131072, 128]⟩
abbrev S8192x128 : Shape := ⟨2, ![8192, 128]⟩
abbrev S8192 : Shape := ⟨1, ![8192]⟩
abbrev S8192x1 : Shape := ⟨2, ![8192, 1]⟩

abbrev nBuf : Space → Nat
  | .hbm => 117
  | .vmem => 0
  | .smem => 0
  | _ => 0

abbrev bufTy : (tb : Table) → Fin (tcTables nBuf tb) → BufTy
  | .hbm, ⟨0, _⟩ => ⟨S300000x256, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S131072, .i32⟩
  | .hbm, ⟨5, _⟩ => ⟨S131072, .i32⟩
  | .hbm, ⟨6, _⟩ => ⟨S131072, .f32⟩
  | .hbm, ⟨7, _⟩ => ⟨S256x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S300000, .f32⟩
  | .hbm, ⟨15, _⟩ => ⟨S800000x1, .i32⟩
  | .hbm, ⟨16, _⟩ => ⟨S300000, .f32⟩
  | .hbm, ⟨17, _⟩ => ⟨S_, .f32⟩
  | .hbm, ⟨18, _⟩ => ⟨S_, .f32⟩
  | .hbm, ⟨19, _⟩ => ⟨S300000, .f32⟩
  | .hbm, ⟨20, _⟩ => ⟨S300000, .f32⟩
  | .hbm, ⟨21, _⟩ => ⟨S_, .f32⟩
  | .hbm, ⟨22, _⟩ => ⟨S300000, .f32⟩
  | .hbm, ⟨23, _⟩ => ⟨S300000, .f32⟩
  | .hbm, ⟨24, _⟩ => ⟨S300000x1, .f32⟩
  | .hbm, ⟨25, _⟩ => ⟨S300000x256, .f32⟩
  | .hbm, ⟨26, _⟩ => ⟨S300000x256, .f32⟩
  | .hbm, ⟨27, _⟩ => ⟨S300000x128, .f32⟩
  | .hbm, ⟨28, _⟩ => ⟨S800000x1, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x128, .f32⟩
  | .hbm, ⟨38, _⟩ => ⟨S800000x128, .f32⟩
  | .hbm, ⟨39, _⟩ => ⟨S800000x128, .f32⟩
  | .hbm, ⟨40, _⟩ => ⟨S_, .f32⟩
  | .hbm, ⟨41, _⟩ => ⟨S50000x128, .f32⟩
  | .hbm, ⟨42, _⟩ => ⟨S800000x1, .i32⟩
  | .hbm, ⟨43, _⟩ => ⟨S50000x128, .f32⟩
  | .hbm, ⟨44, _⟩ => ⟨S_, .f32⟩
  | .hbm, ⟨45, _⟩ => ⟨S50000, .f32⟩
  | .hbm, ⟨46, _⟩ => ⟨S800000x1, .i32⟩
  | .hbm, ⟨47, _⟩ => ⟨S50000, .f32⟩
  | .hbm, ⟨48, _⟩ => ⟨S_, .f32⟩
  | .hbm, ⟨49, _⟩ => ⟨S_, .f32⟩
  | .hbm, ⟨50, _⟩ => ⟨S50000, .f32⟩
  | .hbm, ⟨51, _⟩ => ⟨S50000, .f32⟩
  | .hbm, ⟨52, _⟩ => ⟨S_, .f32⟩
  | .hbm, ⟨53, _⟩ => ⟨S50000, .f32⟩
  | .hbm, ⟨54, _⟩ => ⟨S50000, .f32⟩
  | .hbm, ⟨55, _⟩ => ⟨S50000x1, .f32⟩
  | .hbm, ⟨56, _⟩ => ⟨S50000x128, .f32⟩
  | .hbm, ⟨57, _⟩ => ⟨S50000x128, .f32⟩
  | .hbm, ⟨58, _⟩ => ⟨S1x128, .f32⟩
  | .hbm, ⟨59, _⟩ => ⟨S50000x128, .f32⟩
  | .hbm, ⟨60, _⟩ => ⟨S50000x128, .f32⟩
  | .hbm, ⟨61, _⟩ => ⟨S_, .f32⟩
  | .hbm, ⟨62, _⟩ => ⟨S50000x128, .f32⟩
  | .hbm, ⟨63, _⟩ => ⟨S50000x128, .f32⟩
  | .hbm, ⟨64, _⟩ => ⟨S_, .f32⟩
  | .hbm, ⟨65, _⟩ => ⟨S131072, .f32⟩
  | .hbm, ⟨66, _⟩ => ⟨S_, .f32⟩
  | .hbm, ⟨67, _⟩ => ⟨S50000, .f32⟩
  | .hbm, ⟨68, _⟩ => ⟨S131072x1, .i32⟩
  | .hbm, ⟨69, _⟩ => ⟨S50000, .f32⟩
  | .hbm, ⟨70, _⟩ => ⟨S_, .f32⟩
  | .hbm, ⟨71, _⟩ => ⟨S_, .f32⟩
  | .hbm, ⟨72, _⟩ => ⟨S50000, .f32⟩
  | .hbm, ⟨73, _⟩ => ⟨S50000, .f32⟩
  | .hbm, ⟨74, _⟩ => ⟨S_, .f32⟩
  | .hbm, ⟨75, _⟩ => ⟨S50000, .f32⟩
  | .hbm, ⟨76, _⟩ => ⟨S50000, .f32⟩
  | .hbm, ⟨77, _⟩ => ⟨S50000x1, .f32⟩
  | .hbm, ⟨78, _⟩ => ⟨S50000x128, .f32⟩
  | .hbm, ⟨79, _⟩ => ⟨S50000x128, .f32⟩
  | .hbm, ⟨80, _⟩ => ⟨S131072x1, .f32⟩
  | .hbm, ⟨81, _⟩ => ⟨S_, .i32⟩
  | .hbm, ⟨82, _⟩ => ⟨S131072, .i32⟩
  | .hbm, ⟨83, _⟩ => ⟨S131072, .i1⟩
  | .hbm, ⟨84, _⟩ => ⟨S_, .i32⟩
  | .hbm, ⟨85, _⟩ => ⟨S131072, .i32⟩
  | .hbm, ⟨86, _⟩ => ⟨S131072, .i32⟩
  | .hbm, ⟨87, _⟩ => ⟨S131072, .i32⟩
  | .hbm, ⟨88, _⟩ => ⟨S131072x1, .i32⟩
  | .hbm, ⟨89, _⟩ => ⟨S131072x128, .f32⟩
  | .hbm, ⟨90, _⟩ => ⟨S131072x128, .f32⟩
  | .hbm, ⟨91, _⟩ => ⟨S131072x128, .f32⟩
  | .hbm, ⟨92, _⟩ => ⟨S_, .f32⟩
  | .hbm, ⟨93, _⟩ => ⟨S8192x128, .f32⟩
  | .hbm, ⟨94, _⟩ => ⟨S131072x1, .i32⟩
  | .hbm, ⟨95, _⟩ => ⟨S8192x128, .f32⟩
  | .hbm, ⟨96, _⟩ => ⟨S_, .f32⟩
  | .hbm, ⟨97, _⟩ => ⟨S8192, .f32⟩
  | .hbm, ⟨98, _⟩ => ⟨S131072x1, .i32⟩
  | .hbm, ⟨99, _⟩ => ⟨S8192, .f32⟩
  | .hbm, ⟨100, _⟩ => ⟨S_, .f32⟩
  | .hbm, ⟨101, _⟩ => ⟨S_, .f32⟩
  | .hbm, ⟨102, _⟩ => ⟨S8192, .f32⟩
  | .hbm, ⟨103, _⟩ => ⟨S8192, .f32⟩
  | .hbm, ⟨104, _⟩ => ⟨S_, .f32⟩
  | .hbm, ⟨105, _⟩ => ⟨S8192, .f32⟩
  | .hbm, ⟨106, _⟩ => ⟨S8192, .f32⟩
  | .hbm, ⟨107, _⟩ => ⟨S8192x1, .f32⟩
  | .hbm, ⟨108, _⟩ => ⟨S8192x128, .f32⟩
  | .hbm, ⟨109, _⟩ => ⟨S8192x128, .f32⟩
  | .hbm, ⟨110, _⟩ => ⟨S8192x128, .f32⟩
  | .hbm, ⟨111, _⟩ => ⟨S1x128, .f32⟩
  | .hbm, ⟨112, _⟩ => ⟨S8192x128, .f32⟩
  | .hbm, ⟨113, _⟩ => ⟨S8192x128, .f32⟩
  | .hbm, ⟨114, _⟩ => ⟨S_, .f32⟩
  | .hbm, ⟨115, _⟩ => ⟨S8192x128, .f32⟩
  | .hbm, ⟨116, _⟩ => ⟨S8192x128, .f32⟩
  | _, _ => ⟨S300000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v4 : Ref sig .tc := ⟨.hbm, 20, rfl⟩
abbrev main_cst_2 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_6 : Ref sig .tc := ⟨.hbm, 48, rfl⟩
abbrev main_call1_v0 : Ref sig .tc := ⟨.hbm, 49, rfl⟩
abbrev main_call1_v1 : Ref sig .tc := ⟨.hbm, 50, rfl⟩
abbrev main_v27 : Ref sig .tc := ⟨.hbm, 51, rfl⟩
abbrev main_cst_7 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_call2_cst : Ref sig .tc := ⟨.hbm, 61, rfl⟩
abbrev main_call2_v0 : Ref sig .tc := ⟨.hbm, 62, rfl⟩
abbrev main_v36 : Ref sig .tc := ⟨.hbm, 63, rfl⟩
abbrev main_cst_8 : Ref sig .tc := ⟨.hbm, 64, rfl⟩
abbrev main_v37 : Ref sig .tc := ⟨.hbm, 65, rfl⟩
abbrev main_cst_9 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_10 : Ref sig .tc := ⟨.hbm, 70, rfl⟩
abbrev main_call3_v0 : Ref sig .tc := ⟨.hbm, 71, rfl⟩
abbrev main_call3_v1 : Ref sig .tc := ⟨.hbm, 72, rfl⟩
abbrev main_v41 : Ref sig .tc := ⟨.hbm, 73, rfl⟩
abbrev main_cst_11 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_c_12 : Ref sig .tc := ⟨.hbm, 81, rfl⟩
abbrev main_v48 : Ref sig .tc := ⟨.hbm, 82, rfl⟩
abbrev main_v49 : Ref sig .tc := ⟨.hbm, 83, rfl⟩
abbrev main_c_13 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_14 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_cst_15 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_cst_16 : Ref sig .tc := ⟨.hbm, 100, rfl⟩
abbrev main_call4_v0 : Ref sig .tc := ⟨.hbm, 101, rfl⟩
abbrev main_call4_v1 : Ref sig .tc := ⟨.hbm, 102, rfl⟩
abbrev main_v63 : Ref sig .tc := ⟨.hbm, 103, rfl⟩
abbrev main_cst_17 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_call5_cst : Ref sig .tc := ⟨.hbm, 114, rfl⟩
abbrev main_call5_v0 : Ref sig .tc := ⟨.hbm, 115, rfl⟩
abbrev main_v73 : Ref sig .tc := ⟨.hbm, 116, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S300000 : S_.BroadcastsInDim S300000 (![] : Fin 0 → Fin S300000.rank)
  bcast_S800000_S800000x1_0 : S800000.BroadcastsInDim S800000x1 (![0] : Fin 1 → Fin S800000x1.rank)
  bcast_S300000_S300000x1_0 : S300000.BroadcastsInDim S300000x1 (![0] : Fin 1 → Fin S300000x1.rank)
  bcast_S300000x1_S300000x256_0_1 : S300000x1.BroadcastsInDim S300000x256 (![0, 1] : Fin 2 → Fin S300000x256.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S131072 : S_.BroadcastsInDim S131072 (![] : Fin 0 → Fin S131072.rank)
  bcast_S131072_S131072x1_0 : S131072.BroadcastsInDim S131072x1 (![0] : Fin 1 → Fin S131072x1.rank)
  bcast_S131072x1_S131072x128_0_1 : S131072x1.BroadcastsInDim S131072x128 (![0, 1] : Fin 2 → Fin S131072x128.rank)
  bcast_S_S8192x128 : S_.BroadcastsInDim S8192x128 (![] : Fin 0 → Fin S8192x128.rank)
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  bcast_S1x128_S8192x128_0_1 : S1x128.BroadcastsInDim S8192x128 (![0, 1] : Fin 2 → Fin S8192x128.rank)
  scatter_S300000_S800000x1_S800000_n_0_0_1_wf : ScatterDims.WF S300000 S800000x1 S800000 [] [0] [0] 1
  dot_S300000x256_S256x128_S300000x128_1_0_0_1_n_n_wf : DotDims.WF S300000x256 S256x128 S300000x128 [1] [0] [0] [1] [] []
  gather_S300000x128_S800000x1_S800000x128_1_0_n_n_0_1_1128_wf : GatherDims.WF S300000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  scatter_S50000_S131072x1_S131072_n_0_0_1_wf : ScatterDims.WF S50000 S131072x1 S131072 [] [0] [0] 1
  gather_S50000x128_S131072x1_S131072x128_1_0_n_n_0_1_1128_wf : GatherDims.WF S50000x128 S131072x1 S131072x128 [1] [0] [] [0] [] 1 ![1, 128]
  scatter_S8192x128_S131072x1_S131072x128_1_0_0_1_wf : ScatterDims.WF S8192x128 S131072x1 S131072x128 [1] [0] [0] 1
  scatter_S8192_S131072x1_S131072_n_0_0_1_wf : ScatterDims.WF S8192 S131072x1 S131072 [] [0] [0] 1
  dot_S8192x128_S128x128_S8192x128_1_0_0_1_n_n_wf : DotDims.WF S8192x128 S128x128 S8192x128 [1] [0] [0] [1] [] []

variable [Facts₀]

def scatter_S300000_S800000x1_S800000_n_0_0_1 : ScatterDims S300000 S800000x1 S800000 where
  updateWindowDims := []
  insertedWindowDims := [0]
  scatterDimsToOperandDims := [0]
  indexVectorDim := 1
  wf := scatter_S300000_S800000x1_S800000_n_0_0_1_wf
def dot_S300000x256_S256x128_S300000x128_1_0_0_1_n_n : DotDims S300000x256 S256x128 S300000x128 where
  lhsContracting := [1]
  rhsContracting := [0]
  lhsNonContracting := [0]
  rhsNonContracting := [1]
  lhsBatch := []
  rhsBatch := []
  wf := dot_S300000x256_S256x128_S300000x128_1_0_0_1_n_n_wf
def gather_S300000x128_S800000x1_S800000x128_1_0_n_n_0_1_1128 : GatherDims S300000x128 S800000x1 S800000x128 where
  offsetDims := [1]
  collapsedSliceDims := [0]
  operandBatchingDims := []
  startIndicesBatchingDims := []
  startIndexMap := [0]
  indexVectorDim := 1
  sliceSizes := ![1, 128]
  wf := gather_S300000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S50000_S131072x1_S131072_n_0_0_1 : ScatterDims S50000 S131072x1 S131072 where
  updateWindowDims := []
  insertedWindowDims := [0]
  scatterDimsToOperandDims := [0]
  indexVectorDim := 1
  wf := scatter_S50000_S131072x1_S131072_n_0_0_1_wf
def gather_S50000x128_S131072x1_S131072x128_1_0_n_n_0_1_1128 : GatherDims S50000x128 S131072x1 S131072x128 where
  offsetDims := [1]
  collapsedSliceDims := [0]
  operandBatchingDims := []
  startIndicesBatchingDims := []
  startIndexMap := [0]
  indexVectorDim := 1
  sliceSizes := ![1, 128]
  wf := gather_S50000x128_S131072x1_S131072x128_1_0_n_n_0_1_1128_wf
def scatter_S8192x128_S131072x1_S131072x128_1_0_0_1 : ScatterDims S8192x128 S131072x1 S131072x128 where
  updateWindowDims := [1]
  insertedWindowDims := [0]
  scatterDimsToOperandDims := [0]
  indexVectorDim := 1
  wf := scatter_S8192x128_S131072x1_S131072x128_1_0_0_1_wf
def scatter_S8192_S131072x1_S131072_n_0_0_1 : ScatterDims S8192 S131072x1 S131072 where
  updateWindowDims := []
  insertedWindowDims := [0]
  scatterDimsToOperandDims := [0]
  indexVectorDim := 1
  wf := scatter_S8192_S131072x1_S131072_n_0_0_1_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

class Facts : Prop extends Facts₀ where

variable [Facts]
-- ==== Proof.KernelRun.lean ====
/-
  The three-call program's run, with its result read.

  The program is three calls of tiled bodies among stretches of array operations. Its run ends with every array of
  the device at the contents reached by folding the stretches and the calls' write-backs over the launch memory; read
  at the result's array this is the last call's output after all its write-backs, and read at an argument's array it is
  the argument as launched.
-/
import proofs.«106569_j37675453120777_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result's array then holds what the fold of the whole
    program leaves there, and each argument's array what it held at launch. -/
theorem run_result : θ_run defs (onTc (τ := τ) (main (F := F))) ⟨m, fun _ => 0, ρ⟩ (fun r => ∀ c : Dev nD,
      r.2.mem ((c.tc : Thread nD τ).loc main_v64) = W14 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v64 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c)⟩)

end Cert.KernelIdeal.Hand

end
-- ==== Proof.LibMatmul.lean ====
/-
  A matrix product read at an entry.

  At the exact instance a matrix-unit product into a zero accumulator is, entry by entry, the textbook contraction:
  for an M x K left operand and a K x N right operand, entry (p, q) is the sum over k of lhs(p, k) * rhs(k, q)
  (`matmul_zero_plain_apply`); when the right operand is given as N x K and contracted along its second axis
  (a product with the transpose), entry (p, q) is the sum over k of lhs(p, k) * rhs(q, k) (`matmul_zero_nt_apply`).
  The dimension records are the ones with exactly those contracting and free axes and no batch axis.
-/
import Idealize.ShloMosaic.PureOps.Ideal.Laws
import Idealize.ShloMosaic.Lib.ValueIdx

noncomputable section

namespace Cert.MatmulAt

open Idealize.ShloMosaic Idealize.ShloMosaic.ValueIdx

/-- Rows times columns: contract the left operand's second axis with the right operand's first. -/
abbrev plainDims {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- Rows times rows: contract the second axis of both operands. -/
abbrev ntDims {M K N : ℕ} (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

theorem matmul_zero_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    matmul (plainDims wf) prec lhs rhs (constant (F := Ideal) ⟨2, ![M, N]⟩ .f32 0x00000000#32) (ix2 p q)
      = ∑ k : Fin K, lhs (ix2 p k) * rhs (ix2 k q) := by
  simp only [matmul]
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((plainDims wf).lhsIdx_val_of_single rfl _ _).trans hk)
  have er : (plainDims wf).rhsIdx (ix2 p q) ((contrEquiv1 (plainDims wf) K rfl rfl).symm k) = ix2 k q :=
    funext fun a => Fin.ext (by
      match a with
      | ⟨0, _⟩ => exact ((plainDims wf).rhsIdx_val_of_single rfl _ _).trans hk
      | ⟨1, _⟩ =>
        unfold DotDims.rhsIdx
        split
        · rename_i hb; exact absurd hb List.not_mem_nil
        · split
          · rfl
          · rename_i hn; exact absurd (List.mem_singleton_self _) hn)
  rw [el, er]

theorem matmul_zero_nt_apply {M K N : ℕ} {φ₁ φ₂ : FTy}
    (wf : DotDims.WF ⟨2, ![M, K]⟩ ⟨2, ![N, K]⟩ ⟨2, ![M, N]⟩ [1] [1] [0] [0] [] [])
    (prec : Option ContractPrecision)
    (lhs : FVec Ideal ⟨2, ![M, K]⟩ φ₁) (rhs : FVec Ideal ⟨2, ![N, K]⟩ φ₂) (p : Fin M) (q : Fin N) :
    matmul (ntDims wf) prec lhs rhs (constant (F := Ideal) ⟨2, ![M, N]⟩ .f32 0x00000000#32) (ix2 p q)
      = ∑ k : Fin K, lhs (ix2 p k) * rhs (ix2 q k) := by
  simp only [matmul]
  rw [Ideal.matmul_constant_zero_apply, ← Equiv.sum_comp (contrEquiv1 (ntDims wf) K rfl rfl).symm]
  refine Finset.sum_congr rfl fun k _ => ?_
  have hk := contrEquiv1_symm_val (ntDims wf) K rfl rfl k
  have el : (ntDims wf).lhsIdx (ix2 p q) ((contrEquiv1 (ntDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((ntDims wf).lhsIdx_val_of_single rfl _ _).trans hk)
  have er : (ntDims wf).rhsIdx (ix2 p q) ((contrEquiv1 (ntDims wf) K rfl rfl).symm k) = ix2 q k :=
    funext fun a => Fin.ext (by
      match a with
      | ⟨0, _⟩ =>
        unfold DotDims.rhsIdx
        split
        · rename_i hb; exact absurd hb List.not_mem_nil
        · split
          · rfl
          · rename_i hn; exact absurd (List.mem_singleton_self _) hn
      | ⟨1, _⟩ => exact ((ntDims wf).rhsIdx_val_of_single rfl _ _).trans hk)
  rw [el, er]

end Cert.MatmulAt

end
-- ==== Proof.LibKeepdims.lean ====
/-
  A vector kept as a column, read at an index: the two layout steps a row reduction with a kept axis goes through.
  A length-`a` vector cast to an `a × 1` column holds entry `i` at `(i, 0)` (the row-major position is unchanged),
  and an `a × 1` column broadcast to `a × b` holds, all along row `i`, the column's entry `(i, 0)`.
  (The transposed form, a `1 × a` row broadcast down the columns, and the transpose itself are in the library.)
-/
import Idealize.ShloMosaic.Lib.Pipeline.Value
import Idealize.ShloMosaic.Lib.ValueIdx

namespace Cert.Keepdims

open Idealize.ShloMosaic Idealize.ShloMosaic.ValueIdx

variable {α : Type}

/-- A length-`a` vector cast to an `a × 1` column reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Cert.Keepdims
-- ==== Proof.LibRank2.lean ====
/-
  Rank-two arrays read at an entry (p, q), for any sizes.

  * the host's matrix product of an M x K by a K x N matrix, at the exact instance, is at entry (p, q) the sum over k
    of lhs(p, k) * rhs(k, q) (`dotGeneral_plain_apply`);
  * two matrices laid side by side (joined along the columns) read at (p, q): the left one at (p, q) when q is one of
    its columns, the right one at (p, q - N₁) otherwise (`concat_cols_left`, `concat_cols_right`); stacked one above the
    other (joined along the rows): the upper one at (p, q), the lower one at (p - M₁, q) (`concat_rows_left`,
    `concat_rows_right`);
  * a length-n vector made a 1 x n row and repeated down M rows reads at (p, q) as the vector's entry q, in the host's
    two-step form (`rowBias_apply`) and in the vector unit's cast-then-broadcast form (`rowBias_vec_apply`);
  * the entrywise sum of two length-n vectors reshaped to a 1 x n row reads at (0, q) as the sum of the two entries q
    (`biasSumRow_apply`).
-/
import Idealize.ShloMosaic.Lib.KernelVsHost
import Idealize.ShloMosaic.Lib.ValueLayout
import proofs.«106569_j37675453120777_2_alg».proof.Proof.LibMatmul

noncomputable section

namespace Cert.Rank2

open Idealize.ShloMosaic Idealize.ShloMosaic.ValueIdx

variable {α : Type}

/-- The host's rows-times-columns product at entry (p, q): the plain contraction over k. -/
theorem dotGeneral_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    Host.dotGeneral (Cert.MatmulAt.plainDims wf) prec lhs rhs (ix2 p q) = ∑ k : Fin K, lhs (ix2 p k) * rhs (ix2 k q) := by
  rw [← matmul_zero_eq_dotGeneral]
  exact Cert.MatmulAt.matmul_zero_plain_apply wf prec lhs rhs p q

/-- Side by side, a column of the left matrix. -/
theorem concat_cols_left {M N₁ N₂ N : ℕ} (x₁ : (⟨2, ![M, N₁]⟩ : Shape).Idx → α) (x₂ : (⟨2, ![M, N₂]⟩ : Shape).Idx → α)
    (h : Shape.Concatenates [(⟨2, ![M, N₁]⟩ : Shape), ⟨2, ![M, N₂]⟩] ⟨2, ![M, N]⟩ 1)
    (p : Fin M) (q : Fin N) (q₁ : Fin N₁) (hq : q₁.val = q.val) :
    concatenate ⟨2, ![M, N]⟩ 1 [⟨⟨2, ![M, N₁]⟩, x₁⟩, ⟨⟨2, ![M, N₂]⟩, x₂⟩] h (ix2 p q) = x₁ (ix2 p q₁) :=
  concatenate_pair_apply_left 1 x₁ x₂ h (ix2 p q) rfl (ix2 p q₁) fun b => match b with
    | ⟨0, _⟩ => rfl
    | ⟨1, _⟩ => hq

/-- Side by side, a column of the right matrix. -/
theorem concat_cols_right {M N₁ N₂ N : ℕ} (x₁ : (⟨2, ![M, N₁]⟩ : Shape).Idx → α) (x₂ : (⟨2, ![M, N₂]⟩ : Shape).Idx → α)
    (h : Shape.Concatenates [(⟨2, ![M, N₁]⟩ : Shape), ⟨2, ![M, N₂]⟩] ⟨2, ![M, N]⟩ 1)
    (p : Fin M) (q : Fin N) (q₂ : Fin N₂) (hq : q₂.val + N₁ = q.val) :
    concatenate ⟨2, ![M, N]⟩ 1 [⟨⟨2, ![M, N₁]⟩, x₁⟩, ⟨⟨2, ![M, N₂]⟩, x₂⟩] h (ix2 p q) = x₂ (ix2 p q₂) :=
  concatenate_pair_apply_right 1 x₁ x₂ h (ix2 p q) rfl rfl (ix2 p q₂)
    (fun b hb => match b, hb with
      | ⟨0, _⟩, _ => rfl
      | ⟨1, _⟩, hb => (hb (Fin.ext rfl)).elim)
    hq

/-- One above the other, a row of the upper matrix. -/
theorem concat_rows_left {M₁ M₂ M N : ℕ} (x₁ : (⟨2, ![M₁, N]⟩ : Shape).Idx → α) (x₂ : (⟨2, ![M₂, N]⟩ : Shape).Idx → α)
    (h : Shape.Concatenates [(⟨2, ![M₁, N]⟩ : Shape), ⟨2, ![M₂, N]⟩] ⟨2, ![M, N]⟩ 0)
    (p : Fin M) (q : Fin N) (p₁ : Fin M₁) (hp : p₁.val = p.val) :
    concatenate ⟨2, ![M, N]⟩ 0 [⟨⟨2, ![M₁, N]⟩, x₁⟩, ⟨⟨2, ![M₂, N]⟩, x₂⟩] h (ix2 p q) = x₁ (ix2 p₁ q) :=
  concatenate_pair_apply_left 0 x₁ x₂ h (ix2 p q) rfl (ix2 p₁ q) fun b => match b with
    | ⟨0, _⟩ => hp
    | ⟨1, _⟩ => rfl

/-- One above the other, a row of the lower matrix. -/
theorem concat_rows_right {M₁ M₂ M N : ℕ} (x₁ : (⟨2, ![M₁, N]⟩ : Shape).Idx → α) (x₂ : (⟨2, ![M₂, N]⟩ : Shape).Idx → α)
    (h : Shape.Concatenates [(⟨2, ![M₁, N]⟩ : Shape), ⟨2, ![M₂, N]⟩] ⟨2, ![M, N]⟩ 0)
    (p : Fin M) (q : Fin N) (p₂ : Fin M₂) (hp : p₂.val + M₁ = p.val) :
    concatenate ⟨2, ![M, N]⟩ 0 [⟨⟨2, ![M₁, N]⟩, x₁⟩, ⟨⟨2, ![M₂, N]⟩, x₂⟩] h (ix2 p q) = x₂ (ix2 p₂ q) :=
  concatenate_pair_apply_right 0 x₁ x₂ h (ix2 p q) rfl rfl (ix2 p₂ q)
    (fun b hb => match b, hb with
      | ⟨0, _⟩, hb => (hb (Fin.ext rfl)).elim
      | ⟨1, _⟩, _ => rfl)
    hp

/-- A vector as a 1 x n row, repeated down M rows (the host's two broadcasts): entry (p, q) is the vector's entry q. -/
theorem rowBias_apply {M n : ℕ} (b : (⟨1, ![n]⟩ : Shape).Idx → α)
    (h₁ : (⟨1, ![n]⟩ : Shape).BroadcastsInDim ⟨2, ![1, n]⟩ (![1] : Fin 1 → Fin 2))
    (h₂ : (⟨2, ![1, n]⟩ : Shape).BroadcastsInDim ⟨2, ![M, n]⟩ (![0, 1] : Fin 2 → Fin 2)) (p : Fin M) (q : Fin n) :
    broadcastInDim ⟨2, ![M, n]⟩ ![0, 1] h₂ (broadcastInDim ⟨2, ![1, n]⟩ ![1] h₁ b) (ix2 p q) = b (ix1 q) := by
  refine (broadcastInDim_apply ![0, 1] h₂ _ (ix2 p q) (ix2 (0 : Fin 1) q) fun a => ?_).trans
    (broadcastInDim_apply ![1] h₁ b (ix2 (0 : Fin 1) q) (ix1 q) fun a => ?_)
  · match a with
    | ⟨0, _⟩ => show (0 : ℕ) = if (1 : ℕ) = 1 then 0 else _; rw [if_pos rfl]
    | ⟨1, _⟩ =>
      show q.val = if n = 1 then 0 else q.val
      split
      · have := q.isLt; omega
      · rfl
  · match a with
    | ⟨0, _⟩ =>
      show q.val = if n = 1 then 0 else q.val
      split
      · have := q.isLt; omega
      · rfl

/-- A 1 x n row cast to its own shape and broadcast down M rows (the vector unit's form): entry (p, q) is the row's
    entry (0, q). -/
theorem rowBias_vec_apply {M n : ℕ} (v : (⟨2, ![1, n]⟩ : Shape).Idx → α)
    (hc : (⟨2, ![1, n]⟩ : Shape).ShapeCasts ⟨2, ![1, n]⟩) (hb : (⟨2, ![1, n]⟩ : Shape).Broadcasts ⟨2, ![M, n]⟩)
    (p : Fin M) (q : Fin n) :
    broadcastTo ⟨2, ![M, n]⟩ (shapeCast ⟨2, ![1, n]⟩ v hc) hb (ix2 p q) = v (ix2 (0 : Fin 1) q) := by
  rw [shapeCast_self]
  refine broadcastTo_apply v hb (ix2 p q) (ix2 (0 : Fin 1) q) fun a => ?_
  match a with
  | ⟨0, _⟩ => show (0 : ℕ) = if (1 : ℕ) = 1 then 0 else _; rw [if_pos rfl]
  | ⟨1, _⟩ =>
    show q.val = if n = 1 then 0 else q.val
    split
    · have := q.isLt; omega
    · rfl

/-- The entrywise sum of two vectors, reshaped to a 1 x n row, at (0, q). -/
theorem biasSumRow_apply {n : ℕ} {φ : FTy} (b₁ b₂ : FVec Ideal ⟨1, ![n]⟩ φ)
    (h : (⟨1, ![n]⟩ : Shape).ShapeCasts ⟨2, ![1, n]⟩) (u : Fin 1) (q : Fin n) :
    shapeCast ⟨2, ![1, n]⟩ (addf b₁ b₂) h (ix2 u q) = b₁ (ix1 q) + b₂ (ix1 q) :=
  shapeCast_a_1a_apply (addf b₁ b₂) h u q

end Cert.Rank2

end
-- ==== Proof.Spec.lean ====
/-
  The three tiled stages of a two-layer weighted graph convolution, as functions of whole arrays.

  Each stage acts row by row, so a tiling of the rows does not enter its value:

  * `scaledMatmul x s w`: row p of x is multiplied by the scale s(p, 0) of its node (the inverse square root of its
    clamped degree), and the scaled row meets the weight matrix: entry (p, q) is the sum over k of
    (x(p, k) * s(p, 0)) * w(k, q);
  * `biasReluScale g d b e`: an aggregated message g(p, q) is scaled by the in-degree factor d(p, 0), the bias b(0, q)
    is added, the result is cut off below at zero and scaled by the next layer's out-degree factor e(p, 0);
  * `matmulBiasRelu g s w b`: the scaled rows of g meet the weight matrix as in the first stage, the bias b(0, q) is
    added and the result is cut off below at zero.

  All values are extended reals; the zero of the cut-off is kept as the bit pattern of the float zero.
-/
import Idealize.ShloMosaic.PureOps.Ideal.Laws
import Idealize.ShloMosaic.Lib.ValueIdx

noncomputable section

namespace Cert.Layers

open Idealize.ShloMosaic Idealize.ShloMosaic.ValueIdx

/-- Entry (p, q) of the product of the row-scaled matrix with the weights. -/
def scaledMatmulAt {M K N : ℕ} (x : (⟨2, ![M, K]⟩ : Shape).Idx → EReal) (s : (⟨2, ![M, 1]⟩ : Shape).Idx → EReal)
    (w : (⟨2, ![K, N]⟩ : Shape).Idx → EReal) (p : Fin M) (q : Fin N) : EReal :=
  ∑ k : Fin K, (x (ix2 p k) * s (ix2 p (0 : Fin 1))) * w (ix2 k q)

/-- The product of the row-scaled matrix with the weights, as an array. -/
def scaledMatmul {M K N : ℕ} (x : (⟨2, ![M, K]⟩ : Shape).Idx → EReal) (s : (⟨2, ![M, 1]⟩ : Shape).Idx → EReal)
    (w : (⟨2, ![K, N]⟩ : Shape).Idx → EReal) : (⟨2, ![M, N]⟩ : Shape).Idx → EReal :=
  fun i => scaledMatmulAt x s w (i 0) (i 1)

theorem scaledMatmul_apply {M K N : ℕ} (x : (⟨2, ![M, K]⟩ : Shape).Idx → EReal) (s : (⟨2, ![M, 1]⟩ : Shape).Idx → EReal)
    (w : (⟨2, ![K, N]⟩ : Shape).Idx → EReal) (p : Fin M) (q : Fin N) :
    scaledMatmul x s w (ix2 p q) = scaledMatmulAt x s w p q := rfl

/-- Entry (p, q) of the message scaled, shifted by the bias, cut off at zero and scaled again. -/
def biasReluScaleAt {M N : ℕ} (g : (⟨2, ![M, N]⟩ : Shape).Idx → EReal) (d : (⟨2, ![M, 1]⟩ : Shape).Idx → EReal)
    (b : (⟨2, ![1, N]⟩ : Shape).Idx → EReal) (e : (⟨2, ![M, 1]⟩ : Shape).Idx → EReal) (p : Fin M) (q : Fin N) : EReal :=
  max (g (ix2 p q) * d (ix2 p (0 : Fin 1)) + b (ix2 (0 : Fin 1) q)) (Ideal.ofBits .f32 0x00000000#32) * e (ix2 p (0 : Fin 1))

/-- The same as an array. -/
def biasReluScale {M N : ℕ} (g : (⟨2, ![M, N]⟩ : Shape).Idx → EReal) (d : (⟨2, ![M, 1]⟩ : Shape).Idx → EReal)
    (b : (⟨2, ![1, N]⟩ : Shape).Idx → EReal) (e : (⟨2, ![M, 1]⟩ : Shape).Idx → EReal) : (⟨2, ![M, N]⟩ : Shape).Idx → EReal :=
  fun i => biasReluScaleAt g d b e (i 0) (i 1)

theorem biasReluScale_apply {M N : ℕ} (g : (⟨2, ![M, N]⟩ : Shape).Idx → EReal) (d : (⟨2, ![M, 1]⟩ : Shape).Idx → EReal)
    (b : (⟨2, ![1, N]⟩ : Shape).Idx → EReal) (e : (⟨2, ![M, 1]⟩ : Shape).Idx → EReal) (p : Fin M) (q : Fin N) :
    biasReluScale g d b e (ix2 p q) = biasReluScaleAt g d b e p q := rfl

/-- Entry (p, q) of the scaled rows times the weights, plus the bias, cut off at zero. -/
def matmulBiasReluAt {M K N : ℕ} (g : (⟨2, ![M, K]⟩ : Shape).Idx → EReal) (s : (⟨2, ![M, 1]⟩ : Shape).Idx → EReal)
    (w : (⟨2, ![K, N]⟩ : Shape).Idx → EReal) (b : (⟨2, ![1, N]⟩ : Shape).Idx → EReal) (p : Fin M) (q : Fin N) : EReal :=
  max (scaledMatmulAt g s w p q + b (ix2 (0 : Fin 1) q)) (Ideal.ofBits .f32 0x00000000#32)

/-- The same as an array. -/
def matmulBiasRelu {M K N : ℕ} (g : (⟨2, ![M, K]⟩ : Shape).Idx → EReal) (s : (⟨2, ![M, 1]⟩ : Shape).Idx → EReal)
    (w : (⟨2, ![K, N]⟩ : Shape).Idx → EReal) (b : (⟨2, ![1, N]⟩ : Shape).Idx → EReal) : (⟨2, ![M, N]⟩ : Shape).Idx → EReal :=
  fun i => matmulBiasReluAt g s w b (i 0) (i 1)

theorem matmulBiasRelu_apply {M K N : ℕ} (g : (⟨2, ![M, K]⟩ : Shape).Idx → EReal) (s : (⟨2, ![M, 1]⟩ : Shape).Idx → EReal)
    (w : (⟨2, ![K, N]⟩ : Shape).Idx → EReal) (b : (⟨2, ![1, N]⟩ : Shape).Idx → EReal) (p : Fin M) (q : Fin N) :
    matmulBiasRelu g s w b (ix2 p q) = matmulBiasReluAt g s w b p q := rfl

end Cert.Layers

end
-- ==== Proof.Payloads.lean ====
/-
  The three bodies' stored values, read at an entry.

  Each body loads its blocks whole, computes one value and stores it whole. At the exact instance a change of float
  format is the identity and the matrix unit's product into a zero accumulator is the plain contraction, so:
  the first body's value at (p, q) is the sum over k of (x(p, k) * s(p, 0)) * w(k, q);
  the second's is max(g(p, q) * d(p, 0) + b(0, q), 0) * e(p, 0);
  the third's is max((sum over k of (g(p, k) * s(p, 0)) * w(k, q)) + b(0, q), 0).
-/
import proofs.«106569_j37675453120777_2_alg».proof.Proof.Gen.KernelIdeal.Skeleton
import proofs.«106569_j37675453120777_2_alg».proof.Proof.LibMatmul
import proofs.«106569_j37675453120777_2_alg».proof.Proof.LibKeepdims
import proofs.«106569_j37675453120777_2_alg».proof.Proof.LibRank2
import proofs.«106569_j37675453120777_2_alg».proof.Proof.Spec

noncomputable section

namespace Cert.KernelIdeal.Hand

open Cert.KernelIdeal Cert.KernelIdeal.Gen
open Idealize.ShloMosaic Idealize.ShloMosaic.ValueIdx
open Cert.Layers

/-- The first body: scaled rows times the weights. -/
theorem pay0_apply (x0 : Vec Ideal S12000x256 .f32) (x1 : Vec Ideal S12000x1 .f32) (x2 : Vec Ideal S256x128 .bf16)
    (p : Fin 12000) (q : Fin 128) :
    k0_pay1 (F := Ideal) x0 x1 x2 (ix2 p q) = scaledMatmulAt x0 x1 x2 p q := by
  unfold k0_pay1
  refine (Cert.MatmulAt.matmul_zero_plain_apply dot_S12000x256_S256x128_S12000x128_1_0_0_1_n_n_wf none _ _ p q).trans ?_
  refine Finset.sum_congr rfl fun k _ => ?_
  refine congrArg₂ (· * ·) (congrArg (x0 (ix2 p k) * ·) ?_) ?_
  · exact (Cert.Keepdims.broadcastTo_a1_ab_apply _ _ p k).trans (congrFun (shapeCast_self x1 _) _)
  · exact congrFun (shapeCast_self x2 _) _

/-- The second body: scale, add the bias, cut off at zero, scale. -/
theorem pay1_apply (x0 : Vec Ideal S10000x128 .f32) (x1 : Vec Ideal S10000x1 .f32) (x2 : Vec Ideal S1x128 .f32)
    (x3 : Vec Ideal S10000x1 .f32) (p : Fin 10000) (q : Fin 128) :
    k1_pay1 (F := Ideal) x0 x1 x2 x3 (ix2 p q) = biasReluScaleAt x0 x1 x2 x3 p q := by
  unfold k1_pay1 biasReluScaleAt
  show (max (shapeCast S10000x128 x0 shapeCasts_S10000x128_S10000x128 (ix2 p q)
        * broadcastTo S10000x128 (shapeCast S10000x1 x1 shapeCasts_S10000x1_S10000x1) broadcasts_S10000x1_S10000x128 (ix2 p q)
      + broadcastTo S10000x128 (shapeCast S1x128 x2 shapeCasts_S1x128_S1x128) broadcasts_S1x128_S10000x128 (ix2 p q))
      (Ideal.ofBits .f32 0x00000000#32) : EReal)
    * broadcastTo S10000x128 (shapeCast S10000x1 x3 shapeCasts_S10000x1_S10000x1) broadcasts_S10000x1_S10000x128 (ix2 p q) = _
  rw [Cert.Rank2.rowBias_vec_apply, Cert.Keepdims.broadcastTo_a1_ab_apply, Cert.Keepdims.broadcastTo_a1_ab_apply,
    shapeCast_self, shapeCast_self, shapeCast_self]

/-- The third body: scaled rows times the weights, plus the bias, cut off at zero. -/
theorem pay2_apply (x0 : Vec Ideal S2048x128 .f32) (x1 : Vec Ideal S2048x1 .f32) (x2 : Vec Ideal S128x128 .bf16)
    (x3 : Vec Ideal S1x128 .f32) (p : Fin 2048) (q : Fin 128) :
    k2_pay1 (F := Ideal) x0 x1 x2 x3 (ix2 p q) = matmulBiasReluAt x0 x1 x2 x3 p q := by
  unfold k2_pay1 matmulBiasReluAt
  show (max (matmul dot_S2048x128_S128x128_S2048x128_1_0_0_1_n_n none
          (truncf .bf16 (mulf (shapeCast S2048x128 x0 shapeCasts_S2048x128_S2048x128)
            (broadcastTo S2048x128 (shapeCast S2048x1 x1 shapeCasts_S2048x1_S2048x1) broadcasts_S2048x1_S2048x128)) bitsLt_bf16_f32)
          (shapeCast S128x128 x2 shapeCasts_S128x128_S128x128) (constant (F := Ideal) S2048x128 .f32 0x00000000#32) (ix2 p q)
      + broadcastTo S2048x128 (shapeCast S1x128 x3 shapeCasts_S1x128_S1x128) broadcasts_S1x128_S2048x128 (ix2 p q))
      (Ideal.ofBits .f32 0x00000000#32) : EReal) = _
  rw [Cert.Rank2.rowBias_vec_apply]
  refine congrArg (fun z : EReal => max (z + x3 (ix2 (0 : Fin 1) q)) (Ideal.ofBits .f32 0x00000000#32)) ?_
  refine (Cert.MatmulAt.matmul_zero_plain_apply dot_S2048x128_S128x128_S2048x128_1_0_0_1_n_n_wf none _ _ p q).trans ?_
  unfold scaledMatmulAt
  refine Finset.sum_congr rfl fun k _ => ?_
  show (shapeCast S2048x128 x0 shapeCasts_S2048x128_S2048x128 (ix2 p k)
      * broadcastTo S2048x128 (shapeCast S2048x1 x1 shapeCasts_S2048x1_S2048x1) broadcasts_S2048x1_S2048x128 (ix2 p k))
    * shapeCast S128x128 x2 shapeCasts_S128x128_S128x128 (ix2 k q) = _
  rw [Cert.Keepdims.broadcastTo_a1_ab_apply, shapeCast_self, shapeCast_self, shapeCast_self]

end Cert.KernelIdeal.Hand

end
-- ==== Proof.Region0.lean ====
/-
  The first call's output array: the scaled rows times the weights, whatever the tiling.

  The call walks 25 tiles of 12000 rows. At tile t the body sees rows 12000 t .. 12000 t + 11999 of the node features
  and of the scale column, and the whole weight matrix, and writes rows 12000 t .. 12000 t + 11999 of the output.
  Row p of the product depends on row p of the features and of the scale only, so tile t's block is the restriction of
  one whole-array function, and the 25 blocks cover the 300000 rows.
-/
import proofs.«106569_j37675453120777_2_alg».proof.Proof.Gen.KernelIdeal.Frame
import proofs.«106569_j37675453120777_2_alg».proof.Proof.Payloads
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.Layers

variable (V : (c : Dev nD) → (b : Ref sig .tc) → Buf (Elt Ideal) ((c : Thread nD τ).loc b))

theorem zero_offsets : (![0, 0] : Fin 2 → Nat) = fun _ => 0 := funext fun a => by fin_cases a <;> rfl

/-- The block indices at tile t: the row windows sit at block row t, the weights at the origin. -/
theorem tiles0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Tile t's block of the features is rows 12000 t + a of the array. -/
theorem feat0_apply (c : Dev nD) (t : Fin cfg0.N) (a : Fin 12000) (k : Fin 256) (r : Fin 300000)
    (hr : r.val = t.val * 12000 + a.val) :
    (iblk0 V c 0 t : Vec Ideal S12000x256 .f32) (ix2 a k) = (V c main_arg0 : S300000x256.Idx → EReal) (ix2 r k) := by
  show V c main_arg0 (((cfg0.win 0).blk t).view.emb (ix2 a k)) = _
  refine congrArg (V c main_arg0) (funext fun d => Fin.ext ?_)
  obtain ⟨e0, e1, -⟩ := tiles0 t
  match d with
  | ⟨0, _⟩ => show win0_0.index t (0 : Fin 2) * 12000 + 1 * a.val = r.val; rw [e0, hr]; omega
  | ⟨1, _⟩ => show win0_0.index t (1 : Fin 2) * 256 + 1 * k.val = k.val; rw [e1]; omega

/-- Tile t's block of the scale column is rows 12000 t + a of the column. -/
theorem scale0_apply (c : Dev nD) (t : Fin cfg0.N) (a : Fin 12000) (r : Fin 300000)
    (hr : r.val = t.val * 12000 + a.val) :
    (iblk0 V c 1 t : Vec Ideal S12000x1 .f32) (ix2 a (0 : Fin 1)) = (V c main_v7 : S300000x1.Idx → EReal) (ix2 r (0 : Fin 1)) := by
  show V c main_v7 (((cfg0.win 1).blk t).view.emb (ix2 a (0 : Fin 1))) = _
  refine congrArg (V c main_v7) (funext fun d => Fin.ext ?_)
  obtain ⟨-, -, e0, e1, -⟩ := tiles0 t
  match d with
  | ⟨0, _⟩ => show win0_1.index t (0 : Fin 2) * 12000 + 1 * a.val = r.val; rw [e0, hr]; omega
  | ⟨1, _⟩ => show win0_1.index t (1 : Fin 2) * 1 + 1 * 0 = 0; rw [e1]

/-- Every tile sees the whole weight matrix. -/
theorem weights0_apply (c : Dev nD) (t : Fin cfg0.N) (k : Fin 256) (q : Fin 128) :
    (iblk0 V c 2 t : Vec Ideal S256x128 .bf16) (ix2 k q) = (V c main_v8 : S256x128.Idx → EReal) (ix2 k q) := by
  show V c main_v8 (((cfg0.win 2).blk t).view.emb (ix2 k q)) = _
  refine congrArg (V c main_v8) (funext fun d => Fin.ext ?_)
  obtain ⟨-, -, -, -, e0, e1, -⟩ := tiles0 t
  match d with
  | ⟨0, _⟩ => show win0_2.index t (0 : Fin 2) * 256 + 1 * k.val = k.val; rw [e0]; omega
  | ⟨1, _⟩ => show win0_2.index t (1 : Fin 2) * 128 + 1 * q.val = q.val; rw [e1]; omega

/-- The body's value on blocks that are rows r₀ + a of whole arrays is the whole-array product at those rows. -/
theorem body0_rows (X : S300000x256.Idx → EReal) (S : S300000x1.Idx → EReal) (W : S256x128.Idx → EReal)
    (x0 : Vec Ideal S12000x256 .f32) (x1 : Vec Ideal S12000x1 .f32) (x2 : Vec Ideal S256x128 .bf16) (r₀ : ℕ)
    (h0 : ∀ (a : Fin 12000) (k : Fin 256) (r : Fin 300000), r.val = r₀ + a.val → x0 (ix2 a k) = X (ix2 r k))
    (h1 : ∀ (a : Fin 12000) (r : Fin 300000), r.val = r₀ + a.val → x1 (ix2 a (0 : Fin 1)) = S (ix2 r (0 : Fin 1)))
    (h2 : ∀ (k : Fin 256) (q : Fin 128), x2 (ix2 k q) = W (ix2 k q))
    (j : S12000x128.Idx) (i : S300000x128.Idx) (hi0 : (i 0).val = r₀ + (j 0).val) (hi1 : (i 1).val = (j 1).val) :
    k0_pay1 (F := Ideal) x0 x1 x2 j = scaledMatmul X S W i := by
  obtain ⟨p, q, rfl⟩ : ∃ (p : Fin 12000) (q : Fin 128), j = ix2 p q := ⟨j 0, j 1, eq_ix2 j⟩
  obtain ⟨r, q', rfl⟩ : ∃ (r : Fin 300000) (q' : Fin 128), i = ix2 r q' := ⟨i 0, i 1, eq_ix2 i⟩
  obtain rfl : q' = q := Fin.ext hi1
  rw [pay0_apply, scaledMatmul_apply]
  unfold scaledMatmulAt
  refine Finset.sum_congr rfl fun k _ => ?_
  rw [h0 p k r hi0, h1 p r hi0, h2 k _]

/-- What tile t writes back is tile t's block of the whole-array product. -/
theorem flushed0_eq (c : Dev nD) (t : Fin cfg0.N) :
    (dat0 (F := Ideal) V c).flushed 3 t
      = ((cfg0.win 3).blk t).view.read (Elt Ideal) (scaledMatmul (V c main_arg0) (V c main_v7) (V c main_v8)) := by
  show (cfg0.win 3).cut (grid0.coords t) ((dat0 V c).after 3 t) = _
  rw [after0_3]
  unfold out0_3
  rw [View.canon_unit_zero zero_offsets]
  simp only [View.ld_unit_zero (S := S12000x256) zero_offsets, View.ld_unit_zero (S := S12000x1) zero_offsets,
    View.ld_unit_zero (S := S256x128) zero_offsets]
  obtain ⟨-, -, -, -, -, -, e0, e1⟩ := tiles0 t
  funext j
  refine body0_rows (V c main_arg0) (V c main_v7) (V c main_v8) (iblk0 V c 0 t) (iblk0 V c 1 t) (iblk0 V c 2 t) (t.val * 12000)
    (fun a k r hr => feat0_apply V c t a k r hr) (fun a r hr => scale0_apply V c t a r hr) (fun k q => weights0_apply V c t k q)
    j _ ?_ ?_
  · show win0_3.index t (0 : Fin 2) * 12000 + 1 * (j 0).val = t.val * 12000 + (j 0).val
    rw [e0]; omega
  · show win0_3.index t (1 : Fin 2) * 128 + 1 * (j 1).val = (j 1).val
    rw [e1]; omega

/-- An index is in tile t's output block iff its coordinates are in the block's ranges. -/
theorem mem_out0 (t : Fin cfg0.N) (i : S300000x128.Idx) :
    i ∈ ((cfg0.win 3).blk t).view.set ↔ ∀ a : Fin 2, win0_3.index t a * S12000x128.size a ≤ (i a).val
      ∧ (i a).val < win0_3.index t a * S12000x128.size a + S12000x128.size a := by
  show i ∈ ((View.whole main_v9).slice (win0_3.rect t)).set ↔ _
  rw [View.set_slice_whole, Rect.mem_set_unit]
  exact Iff.rfl

/-- Row r lies in tile r / 12000. -/
theorem cover0 (i : S300000x128.Idx) :
    ∃ t : Fin cfg0.N, (cfg0.win 3).flush t = true ∧ i ∈ ((cfg0.win 3).blk t).view.set := by
  have hi0 : (i 0).val < 300000 := (i 0).isLt
  have hi1 : (i 1).val < 128 := (i 1).isLt
  have hN : cfg0.N = 25 := N_0
  let t : Fin cfg0.N := ⟨(i 0).val / 12000, by rw [hN]; omega⟩
  have ht : t.val = (i 0).val / 12000 := rfl
  obtain ⟨-, -, -, -, -, -, e0, e1⟩ := tiles0 t
  refine ⟨t, flush0_3 t, ?_⟩
  rw [mem_out0]
  intro a
  match a with
  | ⟨0, _⟩ =>
    show win0_3.index t (0 : Fin 2) * 12000 ≤ (i 0).val ∧ (i 0).val < win0_3.index t (0 : Fin 2) * 12000 + 12000
    rw [e0, ht]; omega
  | ⟨1, _⟩ =>
    show win0_3.index t (1 : Fin 2) * 128 ≤ (i 1).val ∧ (i 1).val < win0_3.index t (1 : Fin 2) * 128 + 128
    rw [e1]; omega

/-- After all the write-backs the output array is the whole-array product of the arrays the call was entered with. -/
theorem final0 (c : Dev nD) :
    (dat0 (F := Ideal) V c).arrAt 3 cfg0.N = scaledMatmul (V c main_arg0) (V c main_v7) (V c main_v8) :=
  (dat0 (F := Ideal) V c).arrAt_eq_of_cover 3 _ (fun t _ => flushed0_eq V c t) cover0

end Cert.KernelIdeal.Hand

end
-- ==== Proof.Region1.lean ====
/-
  The second call's output array: scale, add the bias, cut off at zero, scale again, whatever the tiling.

  The call walks 5 tiles of 10000 rows. At tile t the body sees rows 10000 t .. 10000 t + 9999 of the aggregated
  messages and of the two degree columns, and the whole bias row, and writes the same rows of the output. Entry
  (p, q) depends on row p of the messages and columns and on entry q of the bias only, so each tile's block is the
  restriction of one whole-array function, and the 5 blocks cover the 50000 rows.
-/
import proofs.«106569_j37675453120777_2_alg».proof.Proof.Gen.KernelIdeal.Frame
import proofs.«106569_j37675453120777_2_alg».proof.Proof.Payloads
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.Layers

variable (V : (c : Dev nD) → (b : Ref sig .tc) → Buf (Elt Ideal) ((c : Thread nD τ).loc b))

theorem zero_offsets1 : (![0, 0] : Fin 2 → Nat) = fun _ => 0 := funext fun a => by fin_cases a <;> rfl

/-- The block indices at tile t: the row windows sit at block row t, the bias row at the origin. -/
theorem tiles1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- Tile t's block of the messages is rows 10000 t + a of the array. -/
theorem msg1_apply (c : Dev nD) (t : Fin cfg1.N) (a : Fin 10000) (q : Fin 128) (r : Fin 50000)
    (hr : r.val = t.val * 10000 + a.val) :
    (iblk1 V c 0 t : Vec Ideal S10000x128 .f32) (ix2 a q) = (V c main_v23 : S50000x128.Idx → EReal) (ix2 r q) := by
  show V c main_v23 (((cfg1.win 0).blk t).view.emb (ix2 a q)) = _
  refine congrArg (V c main_v23) (funext fun d => Fin.ext ?_)
  obtain ⟨e0, e1, -⟩ := tiles1 t
  match d with
  | ⟨0, _⟩ => show win1_0.index t (0 : Fin 2) * 10000 + 1 * a.val = r.val; rw [e0, hr]; omega
  | ⟨1, _⟩ => show win1_0.index t (1 : Fin 2) * 128 + 1 * q.val = q.val; rw [e1]; omega

/-- Tile t's block of the in-degree column is rows 10000 t + a of the column. -/
theorem indeg1_apply (c : Dev nD) (t : Fin cfg1.N) (a : Fin 10000) (r : Fin 50000)
    (hr : r.val = t.val * 10000 + a.val) :
    (iblk1 V c 1 t : Vec Ideal S10000x1 .f32) (ix2 a (0 : Fin 1)) = (V c main_v30 : S50000x1.Idx → EReal) (ix2 r (0 : Fin 1)) := by
  show V c main_v30 (((cfg1.win 1).blk t).view.emb (ix2 a (0 : Fin 1))) = _
  refine congrArg (V c main_v30) (funext fun d => Fin.ext ?_)
  obtain ⟨-, -, e0, e1, -⟩ := tiles1 t
  match d with
  | ⟨0, _⟩ => show win1_1.index t (0 : Fin 2) * 10000 + 1 * a.val = r.val; rw [e0, hr]; omega
  | ⟨1, _⟩ => show win1_1.index t (1 : Fin 2) * 1 + 1 * 0 = 0; rw [e1]

/-- Every tile sees the whole bias row. -/
theorem bias1_apply (c : Dev nD) (t : Fin cfg1.N) (q : Fin 128) :
    (iblk1 V c 2 t : Vec Ideal S1x128 .f32) (ix2 (0 : Fin 1) q) = (V c main_v39 : S1x128.Idx → EReal) (ix2 (0 : Fin 1) q) := by
  show V c main_v39 (((cfg1.win 2).blk t).view.emb (ix2 (0 : Fin 1) q)) = _
  refine congrArg (V c main_v39) (funext fun d => Fin.ext ?_)
  obtain ⟨-, -, -, -, e0, e1, -⟩ := tiles1 t
  match d with
  | ⟨0, _⟩ => show win1_2.index t (0 : Fin 2) * 1 + 1 * 0 = 0; rw [e0]
  | ⟨1, _⟩ => show win1_2.index t (1 : Fin 2) * 128 + 1 * q.val = q.val; rw [e1]; omega

/-- Tile t's block of the out-degree column is rows 10000 t + a of the column. -/
theorem outdeg1_apply (c : Dev nD) (t : Fin cfg1.N) (a : Fin 10000) (r : Fin 50000)
    (hr : r.val = t.val * 10000 + a.val) :
    (iblk1 V c 3 t : Vec Ideal S10000x1 .f32) (ix2 a (0 : Fin 1)) = (V c main_v38 : S50000x1.Idx → EReal) (ix2 r (0 : Fin 1)) := by
  show V c main_v38 (((cfg1.win 3).blk t).view.emb (ix2 a (0 : Fin 1))) = _
  refine congrArg (V c main_v38) (funext fun d => Fin.ext ?_)
  obtain ⟨-, -, -, -, -, -, e0, e1, -⟩ := tiles1 t
  match d with
  | ⟨0, _⟩ => show win1_3.index t (0 : Fin 2) * 10000 + 1 * a.val = r.val; rw [e0, hr]; omega
  | ⟨1, _⟩ => show win1_3.index t (1 : Fin 2) * 1 + 1 * 0 = 0; rw [e1]

/-- The body's value on blocks that are rows r₀ + a of whole arrays is the whole-array function at those rows. -/
theorem body1_rows (G : S50000x128.Idx → EReal) (D : S50000x1.Idx → EReal) (B : S1x128.Idx → EReal) (E : S50000x1.Idx → EReal)
    (x0 : Vec Ideal S10000x128 .f32) (x1 : Vec Ideal S10000x1 .f32) (x2 : Vec Ideal S1x128 .f32) (x3 : Vec Ideal S10000x1 .f32)
    (r₀ : ℕ)
    (h0 : ∀ (a : Fin 10000) (q : Fin 128) (r : Fin 50000), r.val = r₀ + a.val → x0 (ix2 a q) = G (ix2 r q))
    (h1 : ∀ (a : Fin 10000) (r : Fin 50000), r.val = r₀ + a.val → x1 (ix2 a (0 : Fin 1)) = D (ix2 r (0 : Fin 1)))
    (h2 : ∀ (q : Fin 128), x2 (ix2 (0 : Fin 1) q) = B (ix2 (0 : Fin 1) q))
    (h3 : ∀ (a : Fin 10000) (r : Fin 50000), r.val = r₀ + a.val → x3 (ix2 a (0 : Fin 1)) = E (ix2 r (0 : Fin 1)))
    (j : S10000x128.Idx) (i : S50000x128.Idx) (hi0 : (i 0).val = r₀ + (j 0).val) (hi1 : (i 1).val = (j 1).val) :
    k1_pay1 (F := Ideal) x0 x1 x2 x3 j = biasReluScale G D B E i := by
  obtain ⟨p, q, rfl⟩ : ∃ (p : Fin 10000) (q : Fin 128), j = ix2 p q := ⟨j 0, j 1, eq_ix2 j⟩
  obtain ⟨r, q', rfl⟩ : ∃ (r : Fin 50000) (q' : Fin 128), i = ix2 r q' := ⟨i 0, i 1, eq_ix2 i⟩
  have hq : q' = q := Fin.ext hi1
  subst hq
  rw [pay1_apply, biasReluScale_apply]
  unfold biasReluScaleAt
  rw [h0 p _ r hi0, h1 p r hi0, h2 _, h3 p r hi0]

/-- What tile t writes back is tile t's block of the whole-array function. -/
theorem flushed1_eq (c : Dev nD) (t : Fin cfg1.N) :
    (dat1 (F := Ideal) V c).flushed 4 t
      = ((cfg1.win 4).blk t).view.read (Elt Ideal) (biasReluScale (V c main_v23) (V c main_v30) (V c main_v39) (V c main_v38)) := by
  show (cfg1.win 4).cut (grid1.coords t) ((dat1 V c).after 4 t) = _
  rw [after1_4]
  unfold out1_4
  rw [View.canon_unit_zero zero_offsets1]
  simp only [View.ld_unit_zero (S := S10000x128) zero_offsets1, View.ld_unit_zero (S := S10000x1) zero_offsets1,
    View.ld_unit_zero (S := S1x128) zero_offsets1]
  obtain ⟨-, -, -, -, -, -, -, -, e0, e1⟩ := tiles1 t
  funext j
  refine body1_rows (V c main_v23) (V c main_v30) (V c main_v39) (V c main_v38)
    (iblk1 V c 0 t) (iblk1 V c 1 t) (iblk1 V c 2 t) (iblk1 V c 3 t) (t.val * 10000)
    (fun a q r hr => msg1_apply V c t a q r hr) (fun a r hr => indeg1_apply V c t a r hr) (fun q => bias1_apply V c t q)
    (fun a r hr => outdeg1_apply V c t a r hr) j _ ?_ ?_
  · show win1_4.index t (0 : Fin 2) * 10000 + 1 * (j 0).val = t.val * 10000 + (j 0).val
    rw [e0]; omega
  · show win1_4.index t (1 : Fin 2) * 128 + 1 * (j 1).val = (j 1).val
    rw [e1]; omega

/-- An index is in tile t's output block iff its coordinates are in the block's ranges. -/
theorem mem_out1 (t : Fin cfg1.N) (i : S50000x128.Idx) :
    i ∈ ((cfg1.win 4).blk t).view.set ↔ ∀ a : Fin 2, win1_4.index t a * S10000x128.size a ≤ (i a).val
      ∧ (i a).val < win1_4.index t a * S10000x128.size a + S10000x128.size a := by
  show i ∈ ((View.whole main_v40).slice (win1_4.rect t)).set ↔ _
  rw [View.set_slice_whole, Rect.mem_set_unit]
  exact Iff.rfl

/-- Row r lies in tile r / 10000. -/
theorem cover1 (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 5 := N_1
  let t : Fin cfg1.N := ⟨(i 0).val / 10000, by rw [hN]; omega⟩
  have ht : t.val = (i 0).val / 10000 := rfl
  obtain ⟨-, -, -, -, -, -, -, -, e0, e1⟩ := tiles1 t
  refine ⟨t, flush1_4 t, ?_⟩
  rw [mem_out1]
  intro a
  match a with
  | ⟨0, _⟩ =>
    show win1_4.index t (0 : Fin 2) * 10000 ≤ (i 0).val ∧ (i 0).val < win1_4.index t (0 : Fin 2) * 10000 + 10000
    rw [e0, ht]; omega
  | ⟨1, _⟩ =>
    show win1_4.index t (1 : Fin 2) * 128 ≤ (i 1).val ∧ (i 1).val < win1_4.index t (1 : Fin 2) * 128 + 128
    rw [e1]; omega

/-- After all the write-backs the output array is the whole-array function of the arrays the call was entered with. -/
theorem final1 (c : Dev nD) :
    (dat1 (F := Ideal) V c).arrAt 4 cfg1.N = biasReluScale (V c main_v23) (V c main_v30) (V c main_v39) (V c main_v38) :=
  (dat1 (F := Ideal) V c).arrAt_eq_of_cover 4 _ (fun t _ => flushed1_eq V c t) cover1

end Cert.KernelIdeal.Hand

end
-- ==== Proof.Region2.lean ====
/-
  The third call's output array: the scaled rows times the weights, plus the bias, cut off at zero, whatever the tiling.

  The call walks 4 tiles of 2048 rows. At tile t the body sees rows 2048 t .. 2048 t + 2047 of the aggregated messages
  and of the degree column, the whole weight matrix and the whole bias row, and writes the same rows of the output.
  Row p of the result depends on row p of the messages and of the column only, so each tile's block is the restriction
  of one whole-array function, and the 4 blocks cover the 8192 rows.
-/
import proofs.«106569_j37675453120777_2_alg».proof.Proof.Gen.KernelIdeal.Frame
import proofs.«106569_j37675453120777_2_alg».proof.Proof.Payloads
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.Layers

variable (V : (c : Dev nD) → (b : Ref sig .tc) → Buf (Elt Ideal) ((c : Thread nD τ).loc b))

theorem zero_offsets2 : (![0, 0] : Fin 2 → Nat) = fun _ => 0 := funext fun a => by fin_cases a <;> rfl

/-- The block indices at tile t: the row windows sit at block row t, the weights and the bias row at the origin. -/
theorem tiles2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Tile t's block of the messages is rows 2048 t + a of the array. -/
theorem msg2_apply (c : Dev nD) (t : Fin cfg2.N) (a : Fin 2048) (k : Fin 128) (r : Fin 8192)
    (hr : r.val = t.val * 2048 + a.val) :
    (iblk2 V c 0 t : Vec Ideal S2048x128 .f32) (ix2 a k) = (V c main_v54 : S8192x128.Idx → EReal) (ix2 r k) := by
  show V c main_v54 (((cfg2.win 0).blk t).view.emb (ix2 a k)) = _
  refine congrArg (V c main_v54) (funext fun d => Fin.ext ?_)
  obtain ⟨e0, e1, -⟩ := tiles2 t
  match d with
  | ⟨0, _⟩ => show win2_0.index t (0 : Fin 2) * 2048 + 1 * a.val = r.val; rw [e0, hr]; omega
  | ⟨1, _⟩ => show win2_0.index t (1 : Fin 2) * 128 + 1 * k.val = k.val; rw [e1]; omega

/-- Tile t's block of the degree column is rows 2048 t + a of the column. -/
theorem scale2_apply (c : Dev nD) (t : Fin cfg2.N) (a : Fin 2048) (r : Fin 8192)
    (hr : r.val = t.val * 2048 + a.val) :
    (iblk2 V c 1 t : Vec Ideal S2048x1 .f32) (ix2 a (0 : Fin 1)) = (V c main_v61 : S8192x1.Idx → EReal) (ix2 r (0 : Fin 1)) := by
  show V c main_v61 (((cfg2.win 1).blk t).view.emb (ix2 a (0 : Fin 1))) = _
  refine congrArg (V c main_v61) (funext fun d => Fin.ext ?_)
  obtain ⟨-, -, e0, e1, -⟩ := tiles2 t
  match d with
  | ⟨0, _⟩ => show win2_1.index t (0 : Fin 2) * 2048 + 1 * a.val = r.val; rw [e0, hr]; omega
  | ⟨1, _⟩ => show win2_1.index t (1 : Fin 2) * 1 + 1 * 0 = 0; rw [e1]

/-- Every tile sees the whole weight matrix. -/
theorem weights2_apply (c : Dev nD) (t : Fin cfg2.N) (k : Fin 128) (q : Fin 128) :
    (iblk2 V c 2 t : Vec Ideal S128x128 .bf16) (ix2 k q) = (V c main_v62 : S128x128.Idx → EReal) (ix2 k q) := by
  show V c main_v62 (((cfg2.win 2).blk t).view.emb (ix2 k q)) = _
  refine congrArg (V c main_v62) (funext fun d => Fin.ext ?_)
  obtain ⟨-, -, -, -, e0, e1, -⟩ := tiles2 t
  match d with
  | ⟨0, _⟩ => show win2_2.index t (0 : Fin 2) * 128 + 1 * k.val = k.val; rw [e0]; omega
  | ⟨1, _⟩ => show win2_2.index t (1 : Fin 2) * 128 + 1 * q.val = q.val; rw [e1]; omega

/-- Every tile sees the whole bias row. -/
theorem bias2_apply (c : Dev nD) (t : Fin cfg2.N) (q : Fin 128) :
    (iblk2 V c 3 t : Vec Ideal S1x128 .f32) (ix2 (0 : Fin 1) q) = (V c main_v63 : S1x128.Idx → EReal) (ix2 (0 : Fin 1) q) := by
  show V c main_v63 (((cfg2.win 3).blk t).view.emb (ix2 (0 : Fin 1) q)) = _
  refine congrArg (V c main_v63) (funext fun d => Fin.ext ?_)
  obtain ⟨-, -, -, -, -, -, e0, e1, -⟩ := tiles2 t
  match d with
  | ⟨0, _⟩ => show win2_3.index t (0 : Fin 2) * 1 + 1 * 0 = 0; rw [e0]
  | ⟨1, _⟩ => show win2_3.index t (1 : Fin 2) * 128 + 1 * q.val = q.val; rw [e1]; omega

/-- The body's value on blocks that are rows r₀ + a of whole arrays is the whole-array function at those rows. -/
theorem body2_rows (G : S8192x128.Idx → EReal) (S : S8192x1.Idx → EReal) (W : S128x128.Idx → EReal) (B : S1x128.Idx → EReal)
    (x0 : Vec Ideal S2048x128 .f32) (x1 : Vec Ideal S2048x1 .f32) (x2 : Vec Ideal S128x128 .bf16) (x3 : Vec Ideal S1x128 .f32)
    (r₀ : ℕ)
    (h0 : ∀ (a : Fin 2048) (k : Fin 128) (r : Fin 8192), r.val = r₀ + a.val → x0 (ix2 a k) = G (ix2 r k))
    (h1 : ∀ (a : Fin 2048) (r : Fin 8192), r.val = r₀ + a.val → x1 (ix2 a (0 : Fin 1)) = S (ix2 r (0 : Fin 1)))
    (h2 : ∀ (k : Fin 128) (q : Fin 128), x2 (ix2 k q) = W (ix2 k q))
    (h3 : ∀ (q : Fin 128), x3 (ix2 (0 : Fin 1) q) = B (ix2 (0 : Fin 1) q))
    (j : S2048x128.Idx) (i : S8192x128.Idx) (hi0 : (i 0).val = r₀ + (j 0).val) (hi1 : (i 1).val = (j 1).val) :
    k2_pay1 (F := Ideal) x0 x1 x2 x3 j = matmulBiasRelu G S W B i := by
  obtain ⟨p, q, rfl⟩ : ∃ (p : Fin 2048) (q : Fin 128), j = ix2 p q := ⟨j 0, j 1, eq_ix2 j⟩
  obtain ⟨r, q', rfl⟩ : ∃ (r : Fin 8192) (q' : Fin 128), i = ix2 r q' := ⟨i 0, i 1, eq_ix2 i⟩
  have hq : q' = q := Fin.ext hi1
  subst hq
  rw [pay2_apply, matmulBiasRelu_apply]
  unfold matmulBiasReluAt scaledMatmulAt
  rw [h3 _]
  refine congrArg (fun z : EReal => max (z + B (ix2 (0 : Fin 1) _)) (Ideal.ofBits .f32 0x00000000#32)) ?_
  refine Finset.sum_congr rfl fun k _ => ?_
  rw [h0 p k r hi0, h1 p r hi0, h2 k _]

/-- What tile t writes back is tile t's block of the whole-array function. -/
theorem flushed2_eq (c : Dev nD) (t : Fin cfg2.N) :
    (dat2 (F := Ideal) V c).flushed 4 t
      = ((cfg2.win 4).blk t).view.read (Elt Ideal) (matmulBiasRelu (V c main_v54) (V c main_v61) (V c main_v62) (V c main_v63)) := by
  show (cfg2.win 4).cut (grid2.coords t) ((dat2 V c).after 4 t) = _
  rw [after2_4]
  unfold out2_4
  rw [View.canon_unit_zero zero_offsets2]
  simp only [View.ld_unit_zero (S := S2048x128) zero_offsets2, View.ld_unit_zero (S := S2048x1) zero_offsets2,
    View.ld_unit_zero (S := S128x128) zero_offsets2, View.ld_unit_zero (S := S1x128) zero_offsets2]
  obtain ⟨-, -, -, -, -, -, -, -, e0, e1⟩ := tiles2 t
  funext j
  refine body2_rows (V c main_v54) (V c main_v61) (V c main_v62) (V c main_v63)
    (iblk2 V c 0 t) (iblk2 V c 1 t) (iblk2 V c 2 t) (iblk2 V c 3 t) (t.val * 2048)
    (fun a k r hr => msg2_apply V c t a k r hr) (fun a r hr => scale2_apply V c t a r hr) (fun k q => weights2_apply V c t k q)
    (fun q => bias2_apply V c t q) j _ ?_ ?_
  · show win2_4.index t (0 : Fin 2) * 2048 + 1 * (j 0).val = t.val * 2048 + (j 0).val
    rw [e0]; omega
  · show win2_4.index t (1 : Fin 2) * 128 + 1 * (j 1).val = (j 1).val
    rw [e1]; omega

/-- An index is in tile t's output block iff its coordinates are in the block's ranges. -/
theorem mem_out2 (t : Fin cfg2.N) (i : S8192x128.Idx) :
    i ∈ ((cfg2.win 4).blk t).view.set ↔ ∀ a : Fin 2, win2_4.index t a * S2048x128.size a ≤ (i a).val
      ∧ (i a).val < win2_4.index t a * S2048x128.size a + S2048x128.size a := by
  show i ∈ ((View.whole main_v64).slice (win2_4.rect t)).set ↔ _
  rw [View.set_slice_whole, Rect.mem_set_unit]
  exact Iff.rfl

/-- Row r lies in tile r / 2048. -/
theorem cover2 (i : S8192x128.Idx) :
    ∃ t : Fin cfg2.N, (cfg2.win 4).flush t = true ∧ i ∈ ((cfg2.win 4).blk t).view.set := by
  have hi0 : (i 0).val < 8192 := (i 0).isLt
  have hi1 : (i 1).val < 128 := (i 1).isLt
  have hN : cfg2.N = 4 := N_2
  let t : Fin cfg2.N := ⟨(i 0).val / 2048, by rw [hN]; omega⟩
  have ht : t.val = (i 0).val / 2048 := rfl
  obtain ⟨-, -, -, -, -, -, -, -, e0, e1⟩ := tiles2 t
  refine ⟨t, flush2_4 t, ?_⟩
  rw [mem_out2]
  intro a
  match a with
  | ⟨0, _⟩ =>
    show win2_4.index t (0 : Fin 2) * 2048 ≤ (i 0).val ∧ (i 0).val < win2_4.index t (0 : Fin 2) * 2048 + 2048
    rw [e0, ht]; omega
  | ⟨1, _⟩ =>
    show win2_4.index t (1 : Fin 2) * 128 ≤ (i 1).val ∧ (i 1).val < win2_4.index t (1 : Fin 2) * 128 + 128
    rw [e1]; omega

/-- After all the write-backs the output array is the whole-array function of the arrays the call was entered with. -/
theorem final2 (c : Dev nD) :
    (dat2 (F := Ideal) V c).arrAt 4 cfg2.N = matmulBiasRelu (V c main_v54) (V c main_v61) (V c main_v62) (V c main_v63) :=
  (dat2 (F := Ideal) V c).arrAt_eq_of_cover 4 _ (fun t _ => flushed2_eq V c t) cover2

end Cert.KernelIdeal.Hand

end
-- ==== Proof.Chains.lean ====
/-
  The array operations between the calls, each stretch as one function.

  A node's degree factor is (max(1, number of edge endpoints equal to the node))^(-1/2): a scatter-add of ones over
  the endpoint array, a maximum with one, a power. A layer's aggregation gathers the rows of the previous stage at the
  edges' sources (a negative index counted from the end), weights each by its edge weight, and scatter-adds them at the
  edges' destinations.
-/
import proofs.«106569_j37675453120777_2_alg».proof.Proof.Gen.KernelIdeal

set_option maxRecDepth 16384
set_option Elab.async false

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

/-- Layer 1's out-degree factor of the 300000 source nodes, from the 800000 edge sources. -/
def degScale0 (a : IVec S800000 32) : FVec F S300000 .f32 :=
  Host.powf (F := F)
    (maximumf (F := F) (broadcastInDim S300000 ![] bcast_S_S300000 (id (constant (F := F) S_ .f32 0x3F800000#32)))
      (Host.scatterAdd (F := F) scatter_S300000_S800000x1_S800000_n_0_0_1
        (broadcastInDim S300000 ![] bcast_S_S300000 (constant (F := F) S_ .f32 0x00000000#32))
        (broadcastInDim S800000x1 ![0] bcast_S800000_S800000x1_0 a)
        (broadcastInDim S800000 ![] bcast_S_S800000 (constant (F := F) S_ .f32 0x3F800000#32))))
    (broadcastInDim S300000 ![] bcast_S_S300000 (constant (F := F) S_ .f32 0xBF000000#32))

/-- Layer 1's in-degree factor of the 50000 destination nodes, from the 800000 edge destinations. -/
def degScale1 (a : IVec S800000 32) : FVec F S50000 .f32 :=
  Host.powf (F := F)
    (maximumf (F := F) (broadcastInDim S50000 ![] bcast_S_S50000 (id (constant (F := F) S_ .f32 0x3F800000#32)))
      (Host.scatterAdd (F := F) scatter_S50000_S800000x1_S800000_n_0_0_1
        (broadcastInDim S50000 ![] bcast_S_S50000 (constant (F := F) S_ .f32 0x00000000#32))
        (broadcastInDim S800000x1 ![0] bcast_S800000_S800000x1_0 a)
        (broadcastInDim S800000 ![] bcast_S_S800000 (constant (F := F) S_ .f32 0x3F800000#32))))
    (broadcastInDim S50000 ![] bcast_S_S50000 (constant (F := F) S_ .f32 0xBF000000#32))

/-- Layer 2's out-degree factor of the 50000 source nodes, from the 131072 edge sources. -/
def degScale2 (a : IVec S131072 32) : FVec F S50000 .f32 :=
  Host.powf (F := F)
    (maximumf (F := F) (broadcastInDim S50000 ![] bcast_S_S50000 (id (constant (F := F) S_ .f32 0x3F800000#32)))
      (Host.scatterAdd (F := F) scatter_S50000_S131072x1_S131072_n_0_0_1
        (broadcastInDim S50000 ![] bcast_S_S50000 (constant (F := F) S_ .f32 0x00000000#32))
        (broadcastInDim S131072x1 ![0] bcast_S131072_S131072x1_0 a)
        (broadcastInDim S131072 ![] bcast_S_S131072 (constant (F := F) S_ .f32 0x3F800000#32))))
    (broadcastInDim S50000 ![] bcast_S_S50000 (constant (F := F) S_ .f32 0xBF000000#32))

/-- Layer 2's in-degree factor of the 8192 destination nodes, from the 131072 edge destinations. -/
def degScale3 (a : IVec S131072 32) : FVec F S8192 .f32 :=
  Host.powf (F := F)
    (maximumf (F := F) (broadcastInDim S8192 ![] bcast_S_S8192 (id (constant (F := F) S_ .f32 0x3F800000#32)))
      (Host.scatterAdd (F := F) scatter_S8192_S131072x1_S131072_n_0_0_1
        (broadcastInDim S8192 ![] bcast_S_S8192 (constant (F := F) S_ .f32 0x00000000#32))
        (broadcastInDim S131072x1 ![0] bcast_S131072_S131072x1_0 a)
        (broadcastInDim S131072 ![] bcast_S_S131072 (constant (F := F) S_ .f32 0x3F800000#32))))
    (broadcastInDim S8192 ![] bcast_S_S8192 (constant (F := F) S_ .f32 0xBF000000#32))

/-- Layer 1's aggregation: the rows of H at the edge sources, times the edge weights, summed at the edge destinations. -/
def aggregate1 (H : FVec F S300000x128 .bf16) (src dst : IVec S800000 32) (ew : FVec F S800000 .f32) :
    FVec F S50000x128 .f32 :=
  Host.scatterAdd (F := F) scatter_S50000x128_S800000x1_S800000x128_1_0_0_1
    (broadcastInDim S50000x128 ![] bcast_S_S50000x128 (constant (F := F) S_ .f32 0x00000000#32))
    (broadcastInDim S800000x1 ![0] bcast_S800000_S800000x1_0 dst)
    (mulf (F := F) (broadcastInDim S800000x128 ![0, 1] bcast_S800000x1_S800000x128_0_1 (broadcastInDim S800000x1 ![0] bcast_S800000_S800000x1_0 ew))
      (extf .f32 (Host.gather gather_S300000x128_S800000x1_S800000x128_1_0_n_n_0_1_1128 H
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 300000#32))) src))) bitsLt_bf16_f32))

/-- Layer 2's aggregation, over the 131072 edges of the second block. -/
def aggregate2 (H : FVec F S50000x128 .bf16) (src dst : IVec S131072 32) (ew : FVec F S131072 .f32) :
    FVec F S8192x128 .f32 :=
  Host.scatterAdd (F := F) scatter_S8192x128_S131072x1_S131072x128_1_0_0_1
    (broadcastInDim S8192x128 ![] bcast_S_S8192x128 (constant (F := F) S_ .f32 0x00000000#32))
    (broadcastInDim S131072x1 ![0] bcast_S131072_S131072x1_0 dst)
    (mulf (F := F) (broadcastInDim S131072x128 ![0, 1] bcast_S131072x1_S131072x128_0_1 (broadcastInDim S131072x1 ![0] bcast_S131072_S131072x1_0 ew))
      (extf .f32 (Host.gather gather_S50000x128_S131072x1_S131072x128_1_0_n_n_0_1_1128 H
        (broadcastInDim S131072x1 ![0] bcast_S131072_S131072x1_0
          (select (cmpi .slt src (broadcastInDim S131072 ![] bcast_S_S131072 (constantI S_ 32 0#32)))
            (addi src (broadcastInDim S131072 ![] bcast_S_S131072 (constantI S_ 32 50000#32))) src))) bitsLt_bf16_f32))

end Cert.KernelIdeal.Hand

end
-- ==== Proof.StretchA.lean ====
/-
  Before the first call: the buffers it reads hold the node features, the out-degree column and the weights, and the
  first call leaves every argument it does not read as launched (no stretch and no call writes an argument).
-/
import proofs.«106569_j37675453120777_2_alg».proof.Proof.Gen.KernelIdeal.Frame
import proofs.«106569_j37675453120777_2_alg».proof.Proof.Chains

set_option maxRecDepth 16384
set_option Elab.async false

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

variable (m : (ℓ : Loc nD τ sig) → Buf (Elt F) ℓ) (ρ : Dev nD → PrngReg)

/-! ## Before the first call -/

theorem entry0_x (c : Dev nD) : V3 m ρ c main_arg0 = (m ((c : Thread nD τ).loc main_arg0)) := by
  show StableHlo.after (Val := Elt F) hostOps0_2 (StableHlo.after hostOps0_1 (StableHlo.after hostOps0 (W0 m ρ c))) (Proc.devRef .tc main_arg0) = _
  after_results <;> rfl

theorem entry0_s (c : Dev nD) :
    V3 m ρ c main_v7 = shapeCast S300000x1 (degScale0 (F := F) (m ((c : Thread nD τ).loc main_arg1))) shapeCasts_S300000_S300000x1 := by
  show StableHlo.after (Val := Elt F) hostOps0_2 (StableHlo.after hostOps0_1 (StableHlo.after hostOps0 (W0 m ρ c))) (Proc.devRef .tc main_v7) = _
  after_results <;> rfl

theorem entry0_w (c : Dev nD) : V3 m ρ c main_v8 = (truncf (F := F) .bf16 (m ((c : Thread nD τ).loc main_arg7)) bitsLt_bf16_f32 : FVec F S256x128 .bf16) := by
  show StableHlo.after (Val := Elt F) hostOps0_2 (StableHlo.after hostOps0_1 (StableHlo.after hostOps0 (W0 m ρ c))) (Proc.devRef .tc main_v8) = _
  after_results <;> rfl

/-! ## The arguments after the first call -/

theorem W4_arg1 (c : Dev nD) : W4 m ρ c (Proc.devRef .tc main_arg1) = (m ((c : Thread nD τ).loc main_arg1)) :=
  (W4_of_ne m ρ c main_arg1 (by decide)).trans (by
    show StableHlo.after (Val := Elt F) hostOps0_2 (StableHlo.after hostOps0_1 (StableHlo.after hostOps0 (W0 m ρ c))) (Proc.devRef .tc main_arg1) = _
    after_results <;> rfl)

theorem W4_arg2 (c : Dev nD) : W4 m ρ c (Proc.devRef .tc main_arg2) = (m ((c : Thread nD τ).loc main_arg2)) :=
  (W4_of_ne m ρ c main_arg2 (by decide)).trans (by
    show StableHlo.after (Val := Elt F) hostOps0_2 (StableHlo.after hostOps0_1 (StableHlo.after hostOps0 (W0 m ρ c))) (Proc.devRef .tc main_arg2) = _
    after_results <;> rfl)

theorem W4_arg3 (c : Dev nD) : W4 m ρ c (Proc.devRef .tc main_arg3) = (m ((c : Thread nD τ).loc main_arg3)) :=
  (W4_of_ne m ρ c main_arg3 (by decide)).trans (by
    show StableHlo.after (Val := Elt F) hostOps0_2 (StableHlo.after hostOps0_1 (StableHlo.after hostOps0 (W0 m ρ c))) (Proc.devRef .tc main_arg3) = _
    after_results <;> rfl)

theorem W4_arg4 (c : Dev nD) : W4 m ρ c (Proc.devRef .tc main_arg4) = (m ((c : Thread nD τ).loc main_arg4)) :=
  (W4_of_ne m ρ c main_arg4 (by decide)).trans (by
    show StableHlo.after (Val := Elt F) hostOps0_2 (StableHlo.after hostOps0_1 (StableHlo.after hostOps0 (W0 m ρ c))) (Proc.devRef .tc main_arg4) = _
    after_results <;> rfl)

theorem W4_arg8 (c : Dev nD) : W4 m ρ c (Proc.devRef .tc main_arg8) = (m ((c : Thread nD τ).loc main_arg8)) :=
  (W4_of_ne m ρ c main_arg8 (by decide)).trans (by
    show StableHlo.after (Val := Elt F) hostOps0_2 (StableHlo.after hostOps0_1 (StableHlo.after hostOps0 (W0 m ρ c))) (Proc.devRef .tc main_arg8) = _
    after_results <;> rfl)

end Cert.KernelIdeal.Hand

end
-- ==== Proof.StretchB.lean ====
/-
  Before the second call: the buffers it reads hold layer 1's aggregation of the first call's output, the in-degree
  column, the bias row and layer 2's out-degree column, each a function of the arguments as launched.
-/
import proofs.«106569_j37675453120777_2_alg».proof.Proof.Gen.KernelIdeal.Frame
import proofs.«106569_j37675453120777_2_alg».proof.Proof.Chains
import proofs.«106569_j37675453120777_2_alg».proof.Proof.StretchA

set_option maxRecDepth 16384
set_option Elab.async false

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

variable (m : (ℓ : Loc nD τ sig) → Buf (Elt F) ℓ) (ρ : Dev nD → PrngReg)

/-! ## Before the second call -/

set_option maxHeartbeats 4000000 in
theorem entry1_g (c : Dev nD) :
    V9 m ρ c main_v23 = aggregate1 (F := F) (W4 m ρ c (Proc.devRef .tc main_v9)) (m ((c : Thread nD τ).loc main_arg1)) (m ((c : Thread nD τ).loc main_arg2)) (m ((c : Thread nD τ).loc main_arg3)) := by
  show StableHlo.after (Val := Elt F) hostOps1_4 (StableHlo.after hostOps1_3 (StableHlo.after hostOps1_2 (StableHlo.after hostOps1_1 (StableHlo.after hostOps1 (W4 m ρ c))))) (Proc.devRef .tc main_v23) = _
  after_results_simp
  rw [W4_arg1 m ρ c, W4_arg2 m ρ c, W4_arg3 m ρ c]
  rfl

set_option maxHeartbeats 4000000 in
theorem entry1_d (c : Dev nD) :
    V9 m ρ c main_v30 = shapeCast S50000x1 (degScale1 (F := F) (m ((c : Thread nD τ).loc main_arg2))) shapeCasts_S50000_S50000x1 := by
  show StableHlo.after (Val := Elt F) hostOps1_4 (StableHlo.after hostOps1_3 (StableHlo.after hostOps1_2 (StableHlo.after hostOps1_1 (StableHlo.after hostOps1 (W4 m ρ c))))) (Proc.devRef .tc main_v30) = _
  after_results_simp
  rw [W4_arg2 m ρ c]
  rfl

set_option maxHeartbeats 4000000 in
theorem entry1_b (c : Dev nD) : V9 m ρ c main_v39 = shapeCast S1x128 (m ((c : Thread nD τ).loc main_arg8)) shapeCasts_S128_S1x128 := by
  show StableHlo.after (Val := Elt F) hostOps1_4 (StableHlo.after hostOps1_3 (StableHlo.after hostOps1_2 (StableHlo.after hostOps1_1 (StableHlo.after hostOps1 (W4 m ρ c))))) (Proc.devRef .tc main_v39) = _
  after_results_simp
  rw [W4_arg8 m ρ c]
  rfl

set_option maxHeartbeats 4000000 in
theorem entry1_e (c : Dev nD) :
    V9 m ρ c main_v38 = shapeCast S50000x1 (degScale2 (F := F) (m ((c : Thread nD τ).loc main_arg4))) shapeCasts_S50000_S50000x1 := by
  show StableHlo.after (Val := Elt F) hostOps1_4 (StableHlo.after hostOps1_3 (StableHlo.after hostOps1_2 (StableHlo.after hostOps1_1 (StableHlo.after hostOps1 (W4 m ρ c))))) (Proc.devRef .tc main_v38) = _
  after_results_simp
  rw [W4_arg4 m ρ c]
  rfl

end Cert.KernelIdeal.Hand

end
-- ==== Proof.StretchC.lean ====
/-
  After the second call the arguments the rest of the program reads are still as launched.
-/
import proofs.«106569_j37675453120777_2_alg».proof.Proof.Gen.KernelIdeal.Frame
import proofs.«106569_j37675453120777_2_alg».proof.Proof.Chains
import proofs.«106569_j37675453120777_2_alg».proof.Proof.StretchA

set_option maxRecDepth 16384
set_option Elab.async false

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

variable (m : (ℓ : Loc nD τ sig) → Buf (Elt F) ℓ) (ρ : Dev nD → PrngReg)

/-! ## The arguments after the second call -/

set_option maxHeartbeats 4000000 in
theorem W10_arg4 (c : Dev nD) : W10 m ρ c (Proc.devRef .tc main_arg4) = (m ((c : Thread nD τ).loc main_arg4)) :=
  (W10_of_ne m ρ c main_arg4 (by decide)).trans (by
    show StableHlo.after (Val := Elt F) hostOps1_4 (StableHlo.after hostOps1_3 (StableHlo.after hostOps1_2 (StableHlo.after hostOps1_1 (StableHlo.after hostOps1 (W4 m ρ c))))) (Proc.devRef .tc main_arg4) = _
    after_results_simp
    exact W4_arg4 m ρ c)

set_option maxHeartbeats 4000000 in
theorem W10_arg5 (c : Dev nD) : W10 m ρ c (Proc.devRef .tc main_arg5) = (m ((c : Thread nD τ).loc main_arg5)) :=
  (W10_of_ne m ρ c main_arg5 (by decide)).trans (by
    show StableHlo.after (Val := Elt F) hostOps1_4 (StableHlo.after hostOps1_3 (StableHlo.after hostOps1_2 (StableHlo.after hostOps1_1 (StableHlo.after hostOps1 (W4 m ρ c))))) (Proc.devRef .tc main_arg5) = _
    after_results_simp
    exact (W4_of_ne m ρ c main_arg5 (by decide)).trans (by
      show StableHlo.after (Val := Elt F) hostOps0_2 (StableHlo.after hostOps0_1 (StableHlo.after hostOps0 (W0 m ρ c))) (Proc.devRef .tc main_arg5) = _
      after_results <;> rfl))

set_option maxHeartbeats 4000000 in
theorem W10_arg6 (c : Dev nD) : W10 m ρ c (Proc.devRef .tc main_arg6) = (m ((c : Thread nD τ).loc main_arg6)) :=
  (W10_of_ne m ρ c main_arg6 (by decide)).trans (by
    show StableHlo.after (Val := Elt F) hostOps1_4 (StableHlo.after hostOps1_3 (StableHlo.after hostOps1_2 (StableHlo.after hostOps1_1 (StableHlo.after hostOps1 (W4 m ρ c))))) (Proc.devRef .tc main_arg6) = _
    after_results_simp
    exact (W4_of_ne m ρ c main_arg6 (by decide)).trans (by
      show StableHlo.after (Val := Elt F) hostOps0_2 (StableHlo.after hostOps0_1 (StableHlo.after hostOps0 (W0 m ρ c))) (Proc.devRef .tc main_arg6) = _
      after_results <;> rfl))

set_option maxHeartbeats 4000000 in
theorem W10_arg9 (c : Dev nD) : W10 m ρ c (Proc.devRef .tc main_arg9) = (m ((c : Thread nD τ).loc main_arg9)) :=
  (W10_of_ne m ρ c main_arg9 (by decide)).trans (by
    show StableHlo.after (Val := Elt F) hostOps1_4 (StableHlo.after hostOps1_3 (StableHlo.after hostOps1_2 (StableHlo.after hostOps1_1 (StableHlo.after hostOps1 (W4 m ρ c))))) (Proc.devRef .tc main_arg9) = _
    after_results_simp
    exact (W4_of_ne m ρ c main_arg9 (by decide)).trans (by
      show StableHlo.after (Val := Elt F) hostOps0_2 (StableHlo.after hostOps0_1 (StableHlo.after hostOps0 (W0 m ρ c))) (Proc.devRef .tc main_arg9) = _
      after_results <;> rfl))

set_option maxHeartbeats 4000000 in
theorem W10_arg10 (c : Dev nD) : W10 m ρ c (Proc.devRef .tc main_arg10) = (m ((c : Thread nD τ).loc main_arg10)) :=
  (W10_of_ne m ρ c main_arg10 (by decide)).trans (by
    show StableHlo.after (Val := Elt F) hostOps1_4 (StableHlo.after hostOps1_3 (StableHlo.after hostOps1_2 (StableHlo.after hostOps1_1 (StableHlo.after hostOps1 (W4 m ρ c))))) (Proc.devRef .tc main_arg10) = _
    after_results_simp
    exact (W4_of_ne m ρ c main_arg10 (by decide)).trans (by
      show StableHlo.after (Val := Elt F) hostOps0_2 (StableHlo.after hostOps0_1 (StableHlo.after hostOps0 (W0 m ρ c))) (Proc.devRef .tc main_arg10) = _
      after_results <;> rfl))

end Cert.KernelIdeal.Hand

end
-- ==== Proof.StretchD.lean ====
/-
  Before the third call: the buffers it reads hold layer 2's aggregation of the second call's output, the in-degree
  column, the weights and the bias row, each a function of the arguments as launched.
-/
import proofs.«106569_j37675453120777_2_alg».proof.Proof.Gen.KernelIdeal.Frame
import proofs.«106569_j37675453120777_2_alg».proof.Proof.Chains
import proofs.«106569_j37675453120777_2_alg».proof.Proof.StretchC

set_option maxRecDepth 16384
set_option Elab.async false

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

variable (m : (ℓ : Loc nD τ sig) → Buf (Elt F) ℓ) (ρ : Dev nD → PrngReg)

/-! ## Before the third call -/

set_option maxHeartbeats 4000000 in
theorem entry2_g (c : Dev nD) :
    V13 m ρ c main_v54 = aggregate2 (F := F) (W10 m ρ c (Proc.devRef .tc main_v40)) (m ((c : Thread nD τ).loc main_arg4)) (m ((c : Thread nD τ).loc main_arg5)) (m ((c : Thread nD τ).loc main_arg6)) := by
  show StableHlo.after (Val := Elt F) hostOps2_2 (StableHlo.after hostOps2_1 (StableHlo.after hostOps2 (W10 m ρ c))) (Proc.devRef .tc main_v54) = _
  after_results_simp
  rw [W10_arg4 m ρ c, W10_arg5 m ρ c, W10_arg6 m ρ c]
  rfl

set_option maxHeartbeats 4000000 in
theorem entry2_s (c : Dev nD) :
    V13 m ρ c main_v61 = shapeCast S8192x1 (degScale3 (F := F) (m ((c : Thread nD τ).loc main_arg5))) shapeCasts_S8192_S8192x1 := by
  show StableHlo.after (Val := Elt F) hostOps2_2 (StableHlo.after hostOps2_1 (StableHlo.after hostOps2 (W10 m ρ c))) (Proc.devRef .tc main_v61) = _
  after_results_simp
  rw [W10_arg5 m ρ c]
  rfl

set_option maxHeartbeats 4000000 in
theorem entry2_w (c : Dev nD) : V13 m ρ c main_v62 = (truncf (F := F) .bf16 (m ((c : Thread nD τ).loc main_arg9)) bitsLt_bf16_f32 : FVec F S128x128 .bf16) := by
  show StableHlo.after (Val := Elt F) hostOps2_2 (StableHlo.after hostOps2_1 (StableHlo.after hostOps2 (W10 m ρ c))) (Proc.devRef .tc main_v62) = _
  after_results_simp
  rw [W10_arg9 m ρ c]

set_option maxHeartbeats 4000000 in
theorem entry2_b (c : Dev nD) : V13 m ρ c main_v63 = shapeCast S1x128 (m ((c : Thread nD τ).loc main_arg10)) shapeCasts_S128_S1x128 := by
  show StableHlo.after (Val := Elt F) hostOps2_2 (StableHlo.after hostOps2_1 (StableHlo.after hostOps2 (W10 m ρ c))) (Proc.devRef .tc main_v63) = _
  after_results_simp
  rw [W10_arg10 m ρ c]
  rfl

end Cert.KernelIdeal.Hand

end
-- ==== Proof.LibColRow.lean ====
/-
  A vector laid out as a column or as a row, in the forms array programs write it.

  A vector of M entries becomes an M x 1 column either by a cast (the row-major order is unchanged) or by a broadcast
  along a new unit axis; both are the function (p, 0) -> s(p) (`colOf`). Broadcasting that column across n columns
  gives, at (p, q), the entry s(p) (`colBroadcast_apply`). Likewise a vector of N entries becomes a 1 x N row by a
  cast; that row is the function (0, q) -> b(q) (`rowOf`).
-/
import Idealize.ShloMosaic.Lib.Pipeline.Value
import Idealize.ShloMosaic.Lib.ValueIdx
import Idealize.ShloMosaic.Lib.ValueLayout
import proofs.«106569_j37675453120777_2_alg».proof.Proof.LibKeepdims

namespace Cert.ColRow

open Idealize.ShloMosaic Idealize.ShloMosaic.ValueIdx

variable {α : Type}

/-- A vector of M entries as an M x 1 column: entry (p, u) is the vector's entry p. -/
def colOf {M : ℕ} (s : (⟨1, ![M]⟩ : Shape).Idx → α) : (⟨2, ![M, 1]⟩ : Shape).Idx → α := fun i => s (ix1 (i 0))

theorem colOf_apply {M : ℕ} (s : (⟨1, ![M]⟩ : Shape).Idx → α) (p : Fin M) (u : Fin 1) : colOf s (ix2 p u) = s (ix1 p) := rfl

/-- A vector of N entries as a 1 x N row: entry (u, q) is the vector's entry q. -/
def rowOf {N : ℕ} (b : (⟨1, ![N]⟩ : Shape).Idx → α) : (⟨2, ![1, N]⟩ : Shape).Idx → α := fun i => b (ix1 (i 1))

theorem rowOf_apply {N : ℕ} (b : (⟨1, ![N]⟩ : Shape).Idx → α) (u : Fin 1) (q : Fin N) : rowOf b (ix2 u q) = b (ix1 q) := rfl

/-- The cast of a vector to a column is that column. -/
theorem shapeCast_col {M : ℕ} (s : (⟨1, ![M]⟩ : Shape).Idx → α) (h : (⟨1, ![M]⟩ : Shape).ShapeCasts ⟨2, ![M, 1]⟩) :
    shapeCast ⟨2, ![M, 1]⟩ s h = colOf s := by
  funext i
  obtain ⟨p, u, rfl⟩ : ∃ (p : Fin M) (u : Fin 1), i = ix2 p u := ⟨i 0, i 1, eq_ix2 i⟩
  exact Cert.Keepdims.shapeCast_a_a1_apply s h p u

/-- The cast of a vector to a row is that row. -/
theorem shapeCast_row {N : ℕ} (b : (⟨1, ![N]⟩ : Shape).Idx → α) (h : (⟨1, ![N]⟩ : Shape).ShapeCasts ⟨2, ![1, N]⟩) :
    shapeCast ⟨2, ![1, N]⟩ b h = rowOf b := by
  funext i
  obtain ⟨u, q, rfl⟩ : ∃ (u : Fin 1) (q : Fin N), i = ix2 u q := ⟨i 0, i 1, eq_ix2 i⟩
  exact shapeCast_a_1a_apply b h u q

/-- A vector made a column by a broadcast along a new unit axis, then repeated across n columns: entry (p, q) is the
    vector's entry p. -/
theorem colBroadcast_apply {M n : ℕ} (s : (⟨1, ![M]⟩ : Shape).Idx → α)
    (h₁ : (⟨1, ![M]⟩ : Shape).BroadcastsInDim ⟨2, ![M, 1]⟩ (![0] : Fin 1 → Fin 2))
    (h₂ : (⟨2, ![M, 1]⟩ : Shape).BroadcastsInDim ⟨2, ![M, n]⟩ (![0, 1] : Fin 2 → Fin 2)) (p : Fin M) (q : Fin n) :
    broadcastInDim ⟨2, ![M, n]⟩ ![0, 1] h₂ (broadcastInDim ⟨2, ![M, 1]⟩ ![0] h₁ s) (ix2 p q) = s (ix1 p) := by
  refine (broadcastInDim_apply ![0, 1] h₂ _ (ix2 p q) (ix2 p (0 : Fin 1)) fun a => ?_).trans
    (broadcastInDim_apply ![0] h₁ s (ix2 p (0 : Fin 1)) (ix1 p) fun a => ?_)
  · match a with
    | ⟨0, _⟩ =>
      show p.val = if M = 1 then 0 else p.val
      split
      · have := p.isLt; omega
      · rfl
    | ⟨1, _⟩ => show (0 : ℕ) = if (1 : ℕ) = 1 then 0 else _; rw [if_pos rfl]
  · match a with
    | ⟨0, _⟩ =>
      show p.val = if M = 1 then 0 else p.val
      split
      · have := p.isLt; omega
      · rfl

end Cert.ColRow
-- ==== Proof.KernelValue.lean ====
/-
  The three-call program's result as one function of its arguments.

  Reading the run backwards: the result is the third call's output, which is the third stage of its four input arrays;
  the aggregated messages among them come from the second call's output, the second stage of its inputs; and those
  come from the first call's output, the first stage of the node features, the out-degree column and the weights.
  Every other input is a degree column, a bias row or a weight matrix computed from the arguments alone. Composed,
  the result is `network` of the eleven arguments.
-/
import proofs.«106569_j37675453120777_2_alg».proof.Proof.Region0
import proofs.«106569_j37675453120777_2_alg».proof.Proof.Region1
import proofs.«106569_j37675453120777_2_alg».proof.Proof.Region2
import proofs.«106569_j37675453120777_2_alg».proof.Proof.StretchA
import proofs.«106569_j37675453120777_2_alg».proof.Proof.StretchB
import proofs.«106569_j37675453120777_2_alg».proof.Proof.StretchD
import proofs.«106569_j37675453120777_2_alg».proof.Proof.LibColRow

set_option maxRecDepth 16384

noncomputable section

namespace Cert.KernelIdeal.Hand

open Cert.KernelIdeal Cert.KernelIdeal.Gen
open Idealize.ShloMosaic Idealize.ShloMosaic.TcCoe Idealize.SL.Sem
open Cert.Layers Cert.ColRow

/-- On exact values a rounding to a narrower float format changes nothing. -/
theorem truncf_exact {s : Shape} {φ ψ : FTy} (a : FVec Ideal s φ) (h : ψ.bits < φ.bits) :
    (truncf ψ a h : s.Idx → EReal) = a := rfl

/-- On exact values a widening of the float format changes nothing. -/
theorem extf_exact {s : Shape} {φ ψ : FTy} (a : FVec Ideal s φ) (h : φ.bits < ψ.bits) :
    (extf ψ a h : s.Idx → EReal) = a := rfl

/-- The two-layer weighted graph convolution: layer 1 scales the source features by the out-degree factor, multiplies
    by the weights, aggregates along the edges, scales by the in-degree factor, adds the bias and cuts off at zero;
    layer 2 scales by its out-degree factor, aggregates, scales by its in-degree factor, multiplies by the weights,
    adds the bias and cuts off at zero. -/
def network (x : FVec Ideal S300000x256 .f32) (src0 dst0 : IVec S800000 32) (ew0 : FVec Ideal S800000 .f32)
    (src1 dst1 : IVec S131072 32) (ew1 : FVec Ideal S131072 .f32) (w1 : FVec Ideal S256x128 .f32) (b1 : FVec Ideal S128 .f32)
    (w2 : FVec Ideal S128x128 .f32) (b2 : FVec Ideal S128 .f32) : FVec Ideal S8192x128 .f32 :=
  matmulBiasRelu
    (aggregate2 (F := Ideal)
      (biasReluScale (aggregate1 (F := Ideal) (scaledMatmul x (colOf (degScale0 (F := Ideal) src0)) w1) src0 dst0 ew0)
        (colOf (degScale1 (F := Ideal) dst0)) (rowOf b1) (colOf (degScale2 (F := Ideal) src1)))
      src1 dst1 ew1)
    (colOf (degScale3 (F := Ideal) dst1)) w2 (rowOf b2)

variable (m : (ℓ : Loc nD τ sig) → Buf (Elt Ideal) ℓ) (ρ : Dev nD → PrngReg)

/-- What the fold of the whole program leaves in the result's array. -/
theorem kernel_value (c : Dev nD) :
    W14 m ρ c (Proc.devRef .tc main_v64)
      = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) (m ((c : Thread nD τ).loc main_arg9)) (m ((c : Thread nD τ).loc main_arg10)) := by
  refine (W14_arr m ρ c 4).trans ?_
  rw [final2 (V13 m ρ) c, entry2_g m ρ c, entry2_s m ρ c, entry2_w m ρ c, entry2_b m ρ c]
  rw [show W10 m ρ c (Proc.devRef .tc main_v40) = (dat1 (V9 m ρ) c).arrAt 4 cfg1.N from W10_arr m ρ c 4]
  rw [final1 (V9 m ρ) c, entry1_g m ρ c, entry1_d m ρ c, entry1_b m ρ c, entry1_e m ρ c]
  rw [show W4 m ρ c (Proc.devRef .tc main_v9) = (dat0 (V3 m ρ) c).arrAt 3 cfg0.N from W4_arr m ρ c 3]
  rw [final0 (V3 m ρ) c, entry0_x m ρ c, entry0_s m ρ c, entry0_w m ρ c]
  rw [shapeCast_col, shapeCast_col, shapeCast_col, shapeCast_col, shapeCast_row, shapeCast_row, truncf_exact, truncf_exact]
  rfl

end Cert.KernelIdeal.Hand

end
-- ==== Proof.RefStages.lean ====
/-
  The reference's three dense stages are the whole-array stage functions.

  The reference scales rows by multiplying with a degree column repeated across the columns, multiplies by the weights
  with one matrix product, adds a bias row repeated down the rows and cuts off at zero by a maximum with a zero array.
  Read at an entry (p, q) these are the same formulas as the tiled stages': the repeated column reads s(p), the repeated
  row reads b(q), the matrix product is the plain sum over k, and the zero array reads the float zero.
-/
import proofs.«106569_j37675453120777_2_alg».proof.Proof.Gen.ReferenceIdeal
import proofs.«106569_j37675453120777_2_alg».proof.Proof.LibRank2
import proofs.«106569_j37675453120777_2_alg».proof.Proof.LibColRow
import proofs.«106569_j37675453120777_2_alg».proof.Proof.Spec

noncomputable section

namespace Cert.ReferenceIdeal.Hand

open Cert.ReferenceIdeal Cert.ReferenceIdeal.Gen
open Idealize.ShloMosaic Idealize.ShloMosaic.ValueIdx
open Cert.Layers Cert.ColRow

/-- Layer 1's dense stage: rows scaled by the out-degree factor, times the weights. -/
theorem stage1_eq (x : FVec Ideal S300000x256 .f32) (s : FVec Ideal S300000 .f32)
    (w : FVec Ideal S256x128 .f32) :
    Host.dotGeneral (F := Ideal) (φ₁ := .f32) (φ₂ := .f32) dot_S300000x256_S256x128_S300000x128_1_0_0_1_n_n none
        (mulf (F := Ideal) (φ := .f32) x (broadcastInDim S300000x256 ![0, 1] bcast_S300000x1_S300000x256_0_1
          (broadcastInDim S300000x1 ![0] bcast_S300000_S300000x1_0 s))) w
      = scaledMatmul x (colOf s) w := by
  funext i
  obtain ⟨p, q, rfl⟩ : ∃ (p : Fin 300000) (q : Fin 128), i = ix2 p q := ⟨i 0, i 1, eq_ix2 i⟩
  rw [scaledMatmul_apply]
  refine (Cert.Rank2.dotGeneral_plain_apply dot_S300000x256_S256x128_S300000x128_1_0_0_1_n_n_wf none _ _ p q).trans ?_
  unfold scaledMatmulAt
  refine Finset.sum_congr rfl fun k _ => ?_
  show (x (ix2 p k) * broadcastInDim S300000x256 ![0, 1] bcast_S300000x1_S300000x256_0_1
      (broadcastInDim S300000x1 ![0] bcast_S300000_S300000x1_0 s) (ix2 p k)) * w (ix2 k q) = _
  rw [colBroadcast_apply, colOf_apply]

/-- Between the layers: scale by the in-degree factor, add the bias, cut off at zero, scale by the out-degree factor. -/
theorem stage2_eq (g : FVec Ideal S50000x128 .f32) (d : FVec Ideal S50000 .f32)
    (b : FVec Ideal S128 .f32) (e : FVec Ideal S50000 .f32) :
    mulf (F := Ideal) (φ := .f32) (maximumf (F := Ideal) (φ := .f32) (addf (F := Ideal) (φ := .f32)
          (mulf (F := Ideal) (φ := .f32) g (broadcastInDim S50000x128 ![0, 1] bcast_S50000x1_S50000x128_0_1
            (broadcastInDim S50000x1 ![0] bcast_S50000_S50000x1_0 d)))
          (broadcastInDim S50000x128 ![0, 1] bcast_S1x128_S50000x128_0_1 (broadcastInDim S1x128 ![1] bcast_S128_S1x128_1 b)))
        (broadcastInDim S50000x128 ![] bcast_S_S50000x128 (constant (F := Ideal) S_ .f32 0x00000000#32)))
      (broadcastInDim S50000x128 ![0, 1] bcast_S50000x1_S50000x128_0_1 (broadcastInDim S50000x1 ![0] bcast_S50000_S50000x1_0 e))
      = biasReluScale g (colOf d) (rowOf b) (colOf e) := by
  funext i
  obtain ⟨p, q, rfl⟩ : ∃ (p : Fin 50000) (q : Fin 128), i = ix2 p q := ⟨i 0, i 1, eq_ix2 i⟩
  rw [biasReluScale_apply]
  unfold biasReluScaleAt
  show (max (g (ix2 p q) * broadcastInDim S50000x128 ![0, 1] bcast_S50000x1_S50000x128_0_1
          (broadcastInDim S50000x1 ![0] bcast_S50000_S50000x1_0 d) (ix2 p q)
        + broadcastInDim S50000x128 ![0, 1] bcast_S1x128_S50000x128_0_1 (broadcastInDim S1x128 ![1] bcast_S128_S1x128_1 b) (ix2 p q))
      (Ideal.ofBits .f32 0x00000000#32) : EReal)
    * broadcastInDim S50000x128 ![0, 1] bcast_S50000x1_S50000x128_0_1 (broadcastInDim S50000x1 ![0] bcast_S50000_S50000x1_0 e) (ix2 p q) = _
  rw [Cert.Rank2.rowBias_apply, colBroadcast_apply, colBroadcast_apply, colOf_apply, colOf_apply, rowOf_apply]

/-- Layer 2's dense stage: rows scaled by the in-degree factor, times the weights, plus the bias, cut off at zero. -/
theorem stage3_eq (g : FVec Ideal S8192x128 .f32) (s : FVec Ideal S8192 .f32)
    (w : FVec Ideal S128x128 .f32) (b : FVec Ideal S128 .f32) :
    maximumf (F := Ideal) (φ := .f32) (addf (F := Ideal) (φ := .f32)
        (Host.dotGeneral (F := Ideal) (φ₁ := .f32) (φ₂ := .f32) dot_S8192x128_S128x128_S8192x128_1_0_0_1_n_n none
          (mulf (F := Ideal) (φ := .f32) g (broadcastInDim S8192x128 ![0, 1] bcast_S8192x1_S8192x128_0_1
            (broadcastInDim S8192x1 ![0] bcast_S8192_S8192x1_0 s))) w)
        (broadcastInDim S8192x128 ![0, 1] bcast_S1x128_S8192x128_0_1 (broadcastInDim S1x128 ![1] bcast_S128_S1x128_1 b)))
      (broadcastInDim S8192x128 ![] bcast_S_S8192x128 (constant (F := Ideal) S_ .f32 0x00000000#32))
      = matmulBiasRelu g (colOf s) w (rowOf b) := by
  funext i
  obtain ⟨p, q, rfl⟩ : ∃ (p : Fin 8192) (q : Fin 128), i = ix2 p q := ⟨i 0, i 1, eq_ix2 i⟩
  rw [matmulBiasRelu_apply]
  unfold matmulBiasReluAt
  show (max (Host.dotGeneral (F := Ideal) (φ₁ := .f32) (φ₂ := .f32) dot_S8192x128_S128x128_S8192x128_1_0_0_1_n_n none
          (mulf (F := Ideal) (φ := .f32) g (broadcastInDim S8192x128 ![0, 1] bcast_S8192x1_S8192x128_0_1
            (broadcastInDim S8192x1 ![0] bcast_S8192_S8192x1_0 s))) w (ix2 p q)
        + broadcastInDim S8192x128 ![0, 1] bcast_S1x128_S8192x128_0_1 (broadcastInDim S1x128 ![1] bcast_S128_S1x128_1 b) (ix2 p q))
      (Ideal.ofBits .f32 0x00000000#32) : EReal) = _
  rw [Cert.Rank2.rowBias_apply, rowOf_apply]
  refine congrArg (fun z : EReal => max (z + b (ix1 q)) (Ideal.ofBits .f32 0x00000000#32)) ?_
  refine (Cert.Rank2.dotGeneral_plain_apply dot_S8192x128_S128x128_S8192x128_1_0_0_1_n_n_wf none _ _ p q).trans ?_
  unfold scaledMatmulAt
  refine Finset.sum_congr rfl fun k _ => ?_
  show (g (ix2 p k) * broadcastInDim S8192x128 ![0, 1] bcast_S8192x1_S8192x128_0_1
      (broadcastInDim S8192x1 ![0] bcast_S8192_S8192x1_0 s) (ix2 p k)) * w (ix2 k q) = _
  rw [colBroadcast_apply, colOf_apply]

end Cert.ReferenceIdeal.Hand

end
-- ==== Proof.RefValue.lean ====
/-
  The reference's result is the same function of its arguments.

  The reference's run ends with its result at one composed expression of the arguments. Its three dense stages are
  the whole-array stage functions; what is left around them — the degree factors, the gathers and the scatter-adds —
  is operation for operation what the three-call program applies between its calls (there the gathered rows pass
  through a change of float format, which is the identity on exact values).
-/
import proofs.«106569_j37675453120777_2_alg».proof.Proof.Gen.ReferenceIdeal.Run
import proofs.«106569_j37675453120777_2_alg».proof.Proof.RefStages
import proofs.«106569_j37675453120777_2_alg».proof.Proof.KernelValue

set_option maxRecDepth 16384

noncomputable section

namespace Cert.ReferenceIdeal.Hand

open Idealize.ShloMosaic Idealize.ShloMosaic.TcCoe Idealize.SL.Sem

set_option maxHeartbeats 2000000 in
/-- The reference run's result term is `network` of the reference's arguments. -/
theorem ref_value (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v73 (F := Ideal) m c
      = Cert.KernelIdeal.Hand.network (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))
          (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) := by
  unfold Cert.ReferenceIdeal.Value.res_main_v73
  rw [stage3_eq, stage2_eq, stage1_eq]
  unfold Cert.KernelIdeal.Hand.network Cert.KernelIdeal.Hand.aggregate2 Cert.KernelIdeal.Hand.aggregate1
    Cert.KernelIdeal.Hand.degScale0 Cert.KernelIdeal.Hand.degScale1 Cert.KernelIdeal.Hand.degScale2 Cert.KernelIdeal.Hand.degScale3
  rw [Cert.KernelIdeal.Hand.extf_exact, Cert.KernelIdeal.Hand.extf_exact]
  rfl

end Cert.ReferenceIdeal.Hand

end
-- ==== Proof.lean ====
/-
  A two-layer weighted graph convolution on sampled blocks, as three tiled calls among array operations, against its
  plain array form.

  At exact values both programs compute one function of the eleven arguments. The three calls tile the rows of three
  dense stages — scale the rows and multiply by the weights; scale, add a bias, cut off at zero and scale again; scale,
  multiply, add a bias and cut off at zero — and each stage acts row by row, so the tiling does not enter its value
  (Proof/Region0-2). Between the calls both programs apply the same degree counts, gathers and scatter-adds
  (Proof/Stretches, Proof/RefValue), and the reference writes the three dense stages as whole-array operations with the
  same entries (Proof/RefStages). No law of arithmetic beyond reading each operation at an entry is used: both sides
  multiply and add in the same order, so the inputs' finiteness is not needed.

  The two programs' runs terminate without faults and leave the arguments as launched: for the three-call programs by
  the run over the calls and stretches, for the reference by its straight-line run.
-/
import proofs.«106569_j37675453120777_2_alg».proof.Defs
import proofs.«106569_j37675453120777_2_alg».proof.Proof.Gen.Kernel
import proofs.«106569_j37675453120777_2_alg».proof.Proof.Gen.Kernel.Skeleton
import proofs.«106569_j37675453120777_2_alg».proof.Proof.Gen.Kernel.Launch
import proofs.«106569_j37675453120777_2_alg».proof.Proof.Gen.Kernel.Points
import proofs.«106569_j37675453120777_2_alg».proof.Proof.Gen.Kernel.Frame
import proofs.«106569_j37675453120777_2_alg».proof.Proof.Gen.KernelIdeal
import proofs.«106569_j37675453120777_2_alg».proof.Proof.Gen.KernelIdeal.Skeleton
import proofs.«106569_j37675453120777_2_alg».proof.Proof.Gen.KernelIdeal.Launch
import proofs.«106569_j37675453120777_2_alg».proof.Proof.Gen.KernelIdeal.Points
import proofs.«106569_j37675453120777_2_alg».proof.Proof.Gen.KernelIdeal.Frame
import proofs.«106569_j37675453120777_2_alg».proof.Proof.Gen.ReferenceIdeal
import proofs.«106569_j37675453120777_2_alg».proof.Proof.Gen.Pre_finite_inputs
import proofs.«106569_j37675453120777_2_alg».proof.Proof.Gen.ReferenceIdeal.Run
import proofs.«106569_j37675453120777_2_alg».proof.Proof.KernelRun
import proofs.«106569_j37675453120777_2_alg».proof.Proof.KernelValue
import proofs.«106569_j37675453120777_2_alg».proof.Proof.RefValue
import Idealize.ShloMosaic.Adequacy
import Idealize.ShloMosaic.Init

noncomputable section

namespace Cert.Proof

open Idealize.ShloMosaic Idealize.SL.Sem Cert.Kernel

/-- The reference runs and leaves its arguments unchanged: its straight-line run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the result array at `network` of the arguments, which agree. -/
theorem algebraic : Cert.algebraic_KernelIdeal_ReferenceIdeal := by
  intro m ρ m' ρ' _ hagree
  refine ⟨fun c => Cert.KernelIdeal.Hand.network (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Hand.kernel_value m ρ c), (h c).2⟩)
      (Cert.KernelIdeal.Hand.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10⟩ := hagree c
    refine (Cert.ReferenceIdeal.Hand.ref_value m' c).trans ?_
    rw [e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_reference, trivial, algebraic⟩

end Cert.Proof

end
